-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x32 : Shape := ⟨2, ![48, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x48 : S_.BroadcastsInDim S128x48 (![] : Fin 0 → Fin S128x48.rank)
  reducesTo_S128x48_S_d0_1 : S128x48.ReducesTo [0, 1] S_
  bcast_S_S48 : S_.BroadcastsInDim S48 (![] : Fin 0 → Fin S48.rank)
  reducesTo_S48_S_d0 : S48.ReducesTo [0] S_
  bcast_S_S48x32 : S_.BroadcastsInDim S48x32 (![] : Fin 0 → Fin S48x32.rank)
  reducesTo_S48x32_S_d0_1 : S48x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_arg6 : FVec F S48x32 .f32) (main_arg7 : FVec F S32 .f32) (main_v13 : IVec S_ 1) (main_v16 : IVec S48x32 1) : IVec S_ 1 :=
  let main_c_5 : IVec S_ 1 := constantI S_ 1 1#1
  let main_v17 : IVec S_ 1 := (fun x v => Host.reduce IntOp.andi x v reducesTo_S48x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S48x32 .f32 := Host.absf main_arg6
  let main_cst_8 : FVec F S_ .f32 := constant S_ .f32 0x7F800000#32
  let main_v25 : FVec F S48x32 .f32 := broadcastInDim S48x32 ![] bcast_S_S48x32 main_cst_8
  let main_v26 : IVec S48x32 1 := cmpf .olt main_v24 main_v25
  let main_c_9 : IVec S_ 1 := constantI S_ 1 1#1
  let main_v27 : IVec S_ 1 := (fun x v => Host.reduce IntOp.andi x v reducesTo_S48x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x48 .f32) (main_arg3 : FVec F S48 .f32) (main_arg4 : FVec F S48x32 .f32) (main_arg5 : FVec F S32 .f32) (main_arg6 : FVec F S48x32 .f32) (main_arg7 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x48 .f32 := Host.absf main_arg2
  let main_cst_0 : FVec F S_ .f32 := constant S_ .f32 0x7F800000#32
  let main_v5 : FVec F S128x48 .f32 := broadcastInDim S128x48 ![] bcast_S_S128x48 main_cst_0
  let main_v6 : IVec S128x48 1 := cmpf .olt main_v4 main_v5
  let main_c_1 : IVec S_ 1 := constantI S_ 1 1#1
  let main_v7 : IVec S_ 1 := (fun x v => Host.reduce IntOp.andi x v reducesTo_S128x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x32 .f32 := Host.absf main_arg4
  let main_cst_4 : FVec F S_ .f32 := constant S_ .f32 0x7F800000#32
  let main_v15 : FVec F S48x32 .f32 := broadcastInDim S48x32 ![] bcast_S_S48x32 main_cst_4
  let main_v16 : IVec S48x32 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x32 : Shape := ⟨2, ![48, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S5000x128 : Shape := ⟨2, ![5000, 128]⟩
abbrev S5000x48 : Shape := ⟨2, ![5000, 48]⟩
abbrev S1700000x48 : Shape := ⟨2, ![1700000, 48]⟩
abbrev S1x48 : Shape := ⟨2, ![1, 48]⟩
abbrev S48x64 : Shape := ⟨2, ![48, 64]⟩
abbrev S100000x64 : Shape := ⟨2, ![100000, 64]⟩
abbrev S5000x64 : Shape := ⟨2, ![5000, 64]⟩
abbrev S1700000x64 : Shape := ⟨2, ![1700000, 64]⟩
abbrev S64 : Shape := ⟨1, ![64]⟩
abbrev S1x64 : Shape := ⟨2, ![1, 64]⟩
abbrev S100000x32 : Shape := ⟨2, ![100000, 32]⟩
abbrev S5000x32 : Shape := ⟨2, ![5000, 32]⟩

abbrev nBuf : Space → Nat
  | .hbm => 88
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x48, .f32⟩
  | .hbm, ⟨3, _⟩ => ⟨S48, .f32⟩
  | .hbm, ⟨4, _⟩ => ⟨S48x32, .f32⟩
  | .hbm, ⟨5, _⟩ => ⟨S32, .f32⟩
  | .hbm, ⟨6, _⟩ => ⟨S48x32, .f32⟩
  | .hbm, ⟨7, _⟩ => ⟨S32, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x48, .f32⟩
  | .hbm, ⟨48, _⟩ => ⟨S1700000x1, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x48, .f32⟩
  | .hbm, ⟨58, _⟩ => ⟨S1700000x48, .f32⟩
  | .hbm, ⟨59, _⟩ => ⟨S1700000x48, .f32⟩
  | .hbm, ⟨60, _⟩ => ⟨S_, .f32⟩
  | .hbm, ⟨61, _⟩ => ⟨S100000x48, .f32⟩
  | .hbm, ⟨62, _⟩ => ⟨S1700000x1, .i32⟩
  | .hbm, ⟨63, _⟩ => ⟨S100000x48, .f32⟩
  | .hbm, ⟨64, _⟩ => ⟨S1x48, .f32⟩
  | .hbm, ⟨65, _⟩ => ⟨S100000x48, .f32⟩
  | .hbm, ⟨66, _⟩ => ⟨S48x64, .f32⟩
  | .hbm, ⟨67, _⟩ => ⟨S100000x64, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S64, .f32⟩
  | .hbm, ⟨85, _⟩ => ⟨S1x64, .f32⟩
  | .hbm, ⟨86, _⟩ => ⟨S100000x32, .f32⟩
  | .hbm, ⟨87, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x48, .f32⟩
  | .local _ .vmem, ⟨3, _⟩ => ⟨S5000x48, .f32⟩
  | .local _ .vmem, ⟨4, _⟩ => ⟨S5000x48, .f32⟩
  | .local _ .vmem, ⟨5, _⟩ => ⟨S5000x48, .f32⟩
  | .local _ .vmem, ⟨6, _⟩ => ⟨S5000x48, .f32⟩
  | .local _ .vmem, ⟨7, _⟩ => ⟨S1x48, .f32⟩
  | .local _ .vmem, ⟨8, _⟩ => ⟨S5000x48, .f32⟩
  | .local _ .vmem, ⟨9, _⟩ => ⟨S5000x48, .f32⟩
  | .local _ .vmem, ⟨10, _⟩ => ⟨S5000x48, .f32⟩
  | .local _ .vmem, ⟨11, _⟩ => ⟨S5000x48, .f32⟩
  | .local _ .vmem, ⟨12, _⟩ => ⟨S48x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64_0 : Ref sig .tc := ⟨.hbm, 86, rfl⟩
abbrev main_v64_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S48x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x48_S128x48_0_0 : ∀ a, (![0, 0] : Fin 2 → Nat) a + S128x48.size a ≤ S128x48.size a
  h_S128x48 : 0 < S128x48.numel
  inb_S5000x48_S5000x48_0_0 : ∀ a, (![0, 0] : Fin 2 → Nat) a + S5000x48.size a ≤ S5000x48.size a
  h_S5000x48 : 0 < S5000x48.numel
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  shapeCasts_S48_S1x48 : S48.ShapeCasts S1x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S5000x48 : S1x48.Broadcasts S5000x48
  shapeCasts_S5000x48_S5000x48 : S5000x48.ShapeCasts S5000x48
  concatenates_S48x32_S48x32_S48x64_d1 : Shape.Concatenates [S48x32, S48x32] S48x64 1
  inb_S48x64_S48x64_0_0 : ∀ a, (![0, 0] : Fin 2 → Nat) a + S48x64.size a ≤ S48x64.size a
  h_S48x64 : 0 < S48x64.numel
  shapeCasts_S48x64_S48x64 : S48x64.ShapeCasts S48x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  concatenates_S32_S32_S64_d0 : Shape.Concatenates [S32, S32] S64 0
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  slices_S5000x64_o0_0_S5000x32 : S5000x64.Slices ![0, 0] S5000x32
  inb_S5000x32_S5000x32_0_0 : ∀ a, (![0, 0] : Fin 2 → Nat) a + S5000x32.size a ≤ S5000x32.size a
  h_S5000x32 : 0 < S5000x32.numel
  slices_S5000x64_o0_32_S5000x32 : S5000x64.Slices ![0, 32] S5000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x48_S5000x48_1_0_0_1_n_n_wf : DotDims.WF S5000x128 S128x48 S5000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S5000x48_S48x64_S5000x64_1_0_0_1_n_n_wf : DotDims.WF S5000x48 S48x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x48.size a ≤ S128x48.size a
  hwx0_1 : ∀ i : grid0.Coords, EltTy.bits .f32 = 32 ∨ (Rect.block (s := S128x48) S128x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x48.size a ≤ S100000x48.size a
  hwx0_2 : ∀ i : grid0.Coords, EltTy.bits .f32 = 32 ∨ (Rect.block (s := S100000x48) S5000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x48.size a ≤ S100000x48.size a
  hwx1_0 : ∀ i : grid1.Coords, EltTy.bits .f32 = 32 ∨ (Rect.block (s := S100000x48) S5000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x48.size a ≤ S1x48.size a
  hwx1_1 : ∀ i : grid1.Coords, EltTy.bits .f32 = 32 ∨ (Rect.block (s := S1x48) S1x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x48.size a ≤ S100000x48.size a
  hwx1_2 : ∀ i : grid1.Coords, EltTy.bits .f32 = 32 ∨ (Rect.block (s := S100000x48) S5000x48.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x48.size a ≤ S100000x48.size a
  hwx2_0 : ∀ i : grid2.Coords, EltTy.bits .f32 = 32 ∨ (Rect.block (s := S100000x48) S5000x48.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S48x64.size a ≤ S48x64.size a
  hwx2_1 : ∀ i : grid2.Coords, EltTy.bits .f32 = 32 ∨ (Rect.block (s := S48x64) S48x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x48_S5000x48_1_0_0_1_n_n : DotDims S5000x128 S128x48 S5000x48 where
  lhsContracting := [1]
  rhsContracting := [0]
  lhsNonContracting := [0]
  rhsNonContracting := [1]
  lhsBatch := []
  rhsBatch := []
  wf := dot_S5000x128_S128x48_S5000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S5000x48_S48x64_S5000x64_1_0_0_1_n_n : DotDims S5000x48 S48x64 S5000x64 where
  lhsContracting := [1]
  rhsContracting := [0]
  lhsNonContracting := [0]
  rhsNonContracting := [1]
  lhsBatch := []
  rhsBatch := []
  wf := dot_S5000x48_S48x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x48.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S48x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64_0) S5000x32.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64_1) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x48 : Shape := ⟨2, ![128, 48]⟩
abbrev S48 : Shape := ⟨1, ![48]⟩
abbrev S48x32 : Shape := ⟨2, ![48, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x48 : Shape := ⟨2, ![100000, 48]⟩
abbrev S_ : Shape := ⟨0, ![]⟩
abbrev S1700000x1 : Shape := ⟨2, ![1700000, 1]⟩
abbrev S1700000x48 : Shape := ⟨2, ![1700000, 48]⟩
abbrev S1x48 : Shape := ⟨2, ![1, 48]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 174
  | .vmem => 0
  | .smem => 0
  | _ => 0

abbrev hbmTy0_0 (i : Nat) : BufTy := match i % 128 with
  | 0 => ⟨S100000x128, .f32⟩
  | 1 => ⟨S2x1600000, .i32⟩
  | 2 => ⟨S128x48, .f32⟩
  | 3 => ⟨S48, .f32⟩
  | 4 => ⟨S48x32, .f32⟩
  | 5 => ⟨S32, .f32⟩
  | 6 => ⟨S48x32, .f32⟩
  | 7 => ⟨S32, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x48, .f32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S1700000x1, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x48, .f32⟩
  | 58 => ⟨S1700000x48, .f32⟩
  | 59 => ⟨S1700000x48, .f32⟩
  | 60 => ⟨S_, .f32⟩
  | 61 => ⟨S100000x48, .f32⟩
  | 62 => ⟨S1700000x1, .i32⟩
  | 63 => ⟨S100000x48, .f32⟩
  | 64 => ⟨S1x48, .f32⟩
  | 65 => ⟨S100000x48, .f32⟩
  | 66 => ⟨S100000x48, .f32⟩
  | 67 => ⟨S_, .f32⟩
  | 68 => ⟨S100000x48, .f32⟩
  | 69 => ⟨S100000x48, .f32⟩
  | 70 => ⟨S100000x32, .f32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S1700000x1, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x32, .f32⟩
  | 113 => ⟨S1700000x32, .f32⟩
  | 114 => ⟨S1700000x32, .f32⟩
  | 115 => ⟨S_, .f32⟩
  | 116 => ⟨S100000x32, .f32⟩
  | 117 => ⟨S1700000x1, .i32⟩
  | 118 => ⟨S100000x32, .f32⟩
  | 119 => ⟨S1x32, .f32⟩
  | 120 => ⟨S100000x32, .f32⟩
  | 121 => ⟨S100000x32, .f32⟩
  | 122 => ⟨S100000x32, .f32⟩
  | 123 => ⟨S_, .f32⟩
  | 124 => ⟨S1700000, .f32⟩
  | 125 => ⟨S_, .f32⟩
  | 126 => ⟨S100000, .f32⟩
  | 127 => ⟨S1700000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .i1⟩
  | 4 => ⟨S100000, .f32⟩
  | 5 => ⟨S_, .f32⟩
  | 6 => ⟨S100000, .f32⟩
  | 7 => ⟨S100000, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000, .f32⟩
  | 26 => ⟨S1700000, .f32⟩
  | 27 => ⟨S1700000x1, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000x32, .f32⟩
  | 37 => ⟨S1700000x32, .f32⟩
  | 38 => ⟨S1700000x32, .f32⟩
  | 39 => ⟨S_, .f32⟩
  | 40 => ⟨S100000x32, .f32⟩
  | 41 => ⟨S1700000x1, .i32⟩
  | 42 => ⟨S100000x32, .f32⟩
  | 43 => ⟨S1x32, .f32⟩
  | 44 => ⟨S100000x32, .f32⟩
  | 45 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_20 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_22 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_23 : Ref sig .tc := ⟨.hbm, 133, rfl⟩
abbrev main_v98 : Ref sig .tc := ⟨.hbm, 134, rfl⟩
abbrev main_v99 : Ref sig .tc := ⟨.hbm, 135, rfl⟩
abbrev main_c_24 : Ref sig .tc := ⟨.hbm, 136, rfl⟩
abbrev main_v100 : Ref sig .tc := ⟨.hbm, 137, rfl⟩
abbrev main_v101 : Ref sig .tc := ⟨.hbm, 138, rfl⟩
abbrev main_c_25 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_26 : Ref sig .tc := ⟨.hbm, 145, rfl⟩
abbrev main_v107 : Ref sig .tc := ⟨.hbm, 146, rfl⟩
abbrev main_v108 : Ref sig .tc := ⟨.hbm, 147, rfl⟩
abbrev main_c_27 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_28 : Ref sig .tc := ⟨.hbm, 156, rfl⟩
abbrev main_v116 : Ref sig .tc := ⟨.hbm, 157, rfl⟩
abbrev main_v117 : Ref sig .tc := ⟨.hbm, 158, rfl⟩
abbrev main_c_29 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_30 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x48_S100000x48_1_0_0_1_n_n_wf : DotDims.WF S100000x128 S128x48 S100000x48 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S100000x48_S48x32_S100000x32_1_0_0_1_n_n_wf : DotDims.WF S100000x48 S48x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x48_S100000x48_1_0_0_1_n_n : DotDims S100000x128 S128x48 S100000x48 where
  lhsContracting := [1]
  rhsContracting := [0]
  lhsNonContracting := [0]
  rhsNonContracting := [1]
  lhsBatch := []
  rhsBatch := []
  wf := dot_S100000x128_S128x48_S100000x48_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S100000x48_S48x32_S100000x32_1_0_0_1_n_n : DotDims S100000x48 S48x32 S100000x32 where
  lhsContracting := [1]
  rhsContracting := [0]
  lhsNonContracting := [0]
  rhsNonContracting := [1]
  lhsBatch := []
  rhsBatch := []
  wf := dot_S100000x48_S48x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KRun.lean ====
/-
  The kernel program's run with its two results named.

  The program is four pipelined regions among stretches of host operations.  Its generated frame folds the
  buffer contents through every segment (the launch memory, then each stretch's operations, then each region's
  write-backs) and ends at the contents after the last region; every execution terminates in a state whose
  unscoped buffers hold exactly that fold.  Read at the two result buffers, instead of only at the arguments,
  the same run says that each result ends at the fold's value there; the arguments end as launched.
-/
import proofs.«157116_j54597624267033_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with each result buffer at the
    contents the fold through the program's segments gives it, and the argument arrays as launched. -/
theorem run_named : θ_run defs (onTc (τ := τ) (main (F := F))) ⟨m, fun _ => 0, ρ⟩ (fun r => ∀ c : Dev nD,
      r.2.mem ((c.tc : Thread nD τ).loc main_v64_0) = W10 m ρ c (Proc.devRef .tc main_v64_0)
      ∧ r.2.mem ((c.tc : Thread nD τ).loc main_v64_1) = W10 m ρ c (Proc.devRef .tc main_v64_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v64_0 (by decide)),
       h c _ (mem_uc main_v64_1 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.KRun

end
-- ==== Proof.LibTypedRef.lean ====
/-
  CONTENTS AT A TYPED REFERENCE'S VALUE TYPE AND AT ITS BUFFER'S OWN TYPE.

  A host function whose operations are listed inside its caller names its buffers by typed references: a buffer together with
  the equation that the buffer's type is the value type `T` it is used at. Such an operation reads a buffer's contents
  moved along that equation to `T` (`ofBuf`) and writes its result moved back (`toBuf`). Both moves are the identity up
  to the equation. Stated here for every typed reference:
  • moved to the buffer's type and back, contents are what they were (`ofBuf_toBuf`);
  • contents moved either way are equal to whatever they are heterogeneously equal to (`ofBuf_eq`, `toBuf_eq`) — for a
    literal reference the two types are the same by computation, so the side condition is then reflexivity.
  The proofs take the reference apart and substitute the equation, which is possible because `T` is a variable here;
  nothing about any particular buffer table is evaluated.
-/
import Idealize.ShloMosaic.Lib.StableHlo

noncomputable section

namespace Cert.TypedRef

open Idealize.ShloMosaic Idealize.ShloMosaic.StableHlo

variable {sig : RefSig} {Val : EltTy → Type} {T : BufTy}

/-- Contents moved to the buffer's own type and back are what they were. -/
theorem ofBuf_toBuf (x : TRef sig T) (v : T.Contents Val) : x.ofBuf (x.toBuf v) = v := by
  obtain ⟨r, te, od, us⟩ := x
  subst te
  rfl

/-- The buffer's contents read at the value type are any value of that type they are heterogeneously equal to. -/
theorem ofBuf_eq (x : TRef sig T) (w' : x.ref.ty.Contents Val) (w : T.Contents Val) (h : HEq w' w) : x.ofBuf w' = w :=
  eq_of_heq ((cast_heq _ w').trans h)

/-- A value written at the buffer's own type is any contents of the buffer it is heterogeneously equal to. -/
theorem toBuf_eq (x : TRef sig T) (v : T.Contents Val) (w' : x.ref.ty.Contents Val) (h : HEq v w') : x.toBuf v = w' :=
  eq_of_heq ((cast_heq _ v).trans h)

end Cert.TypedRef

end
-- ==== Proof.Walk.lean ====
/-
  The kernel program's buffers before its first region, and the buffers that later segments leave alone.

  Before the first pipelined region the program computes, by host operations on the edge list alone, the source
  and destination index vectors (the edge list's two rows, each followed by the self loops 0 … N-1), the in-degree
  of every node (a segment sum of ones over the destinations), its inverse square root where the degree is positive
  and zero elsewhere, and the weight of every edge (the product of that value at its two ends).  The reference
  program computes the same three arrays by the same operations; each is named here by the reference's stage
  function of the edge list.  Every later segment — a region writing its own output array, a stretch of host
  operations writing its own results — leaves these three arrays and the argument arrays as it found them.
-/
import proofs.«157116_j54597624267033_1_alg».proof.Proof.Gen.KernelIdeal.Frame
import proofs.«157116_j54597624267033_1_alg».proof.Proof.RefRead
import proofs.«157116_j54597624267033_1_alg».proof.Proof.LibTypedRef

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A stretch of host operations leaves a buffer none of them writes as it found it. -/
macro "keeps" "[" ops:ident "]" : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The reads a one-pass rewriting leaves inside the pieces of a concatenate, rewritten one operation at a time. -/
macro "after_results_rest" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## The index vectors, the degrees and the edge weights -/

/-- The launch contents of the edge list. -/
theorem W0_arg1 : W0 m ρ c (Proc.devRef .tc main_arg1) = m ((c : Thread nD τ).loc main_arg1) := rfl

/-- The source vector: the edge list's first row followed by the self loops. -/
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  after_results_rest
  rfl

/-- The destination vector: the edge list's second row followed by the self loops. -/
theorem W1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  after_results_rest
  rfl

/-- Where the in-degree is positive. -/
theorem W1_v12 : W1 m ρ c (Proc.devRef .tc main_v12) = Cert.ReferenceIdeal.Read.val_main_v13 (F := Ideal) (m ((c : Thread nD τ).loc main_arg1)) := by
  show StableHlo.after hostOps0 (W0 m ρ c) (Proc.devRef .tc main_v12) = _
  after_results_simp
  after_results_rest
  rfl

/-- The inverse square root of the in-degree. -/
theorem W1_v13 : W1 m ρ c (Proc.devRef .tc main_v13) = Cert.ReferenceIdeal.Read.val_main_v14 (F := Ideal) (m ((c : Thread nD τ).loc main_arg1)) := by
  show StableHlo.after hostOps0 (W0 m ρ c) (Proc.devRef .tc main_v13) = _
  after_results_simp
  after_results_rest
  rfl

/-- The zeros it is replaced by where the degree is not positive. -/
theorem W1_v14 : W1 m ρ c (Proc.devRef .tc main_v14) = Cert.ReferenceIdeal.Read.val_main_v15 (F := Ideal) := by
  show StableHlo.after hostOps0 (W0 m ρ c) (Proc.devRef .tc main_v14) = _
  after_results_simp
  rfl

/-- The per-node factor: the inverse square root of the degree, or zero. -/
theorem W2_v15 : W2 m ρ c (Proc.devRef .tc main_v15) = Cert.ReferenceIdeal.Read.val_main_v16 (F := Ideal) (m ((c : Thread nD τ).loc main_arg1)) := by
  have e12 := W1_v12 m ρ c
  have e13 := W1_v13 m ρ c
  have e14 := W1_v14 m ρ c
  show StableHlo.after hostOps0_1 (W1 m ρ c) (Proc.devRef .tc main_v15) = _
  generalize W1 m ρ c = V at e12 e13 e14 ⊢
  after_results_simp
  rw [e12, e13, e14]
  refine (Cert.TypedRef.toBuf_eq (TRef.of main_v15 _ _ _) _ _ HEq.rfl).trans ?_
  rw [Cert.TypedRef.ofBuf_eq (TRef.of main_v12 _ _ _) _ _ HEq.rfl, Cert.TypedRef.ofBuf_eq (TRef.of main_v13 _ _ _) _ _ HEq.rfl,
    Cert.TypedRef.ofBuf_eq (TRef.of main_v14 _ _ _) _ _ HEq.rfl]
  rfl

/-- The select between the two leaves the source vector alone. -/
theorem W2_v3' : W2 m ρ c (Proc.devRef .tc main_v3) = W1 m ρ c (Proc.devRef .tc main_v3) :=
  calc W2 m ρ c (Proc.devRef .tc main_v3)
    _ = W1 m ρ c (Proc.devRef .tc main_v3) := by keeps [hostOps0_1]

/-- … and the destination vector. -/
theorem W2_v6' : W2 m ρ c (Proc.devRef .tc main_v6) = W1 m ρ c (Proc.devRef .tc main_v6) :=
  calc W2 m ρ c (Proc.devRef .tc main_v6)
    _ = W1 m ρ c (Proc.devRef .tc main_v6) := by keeps [hostOps0_1]

theorem W2_v3 : W2 m ρ c (Proc.devRef .tc main_v3) = Cert.ReferenceIdeal.Read.val_main_v3 (F := Ideal) (m ((c : Thread nD τ).loc main_arg1)) := (W2_v3' m ρ c).trans (W1_v3 m ρ c)
theorem W2_v6 : W2 m ρ c (Proc.devRef .tc main_v6) = Cert.ReferenceIdeal.Read.val_main_v6 (F := Ideal) (m ((c : Thread nD τ).loc main_arg1)) := (W2_v6' m ρ c).trans (W1_v6 m ρ c)

/-- The weight of every edge: the product of the per-node factor at its source and at its destination (each index
    wrapped when negative and clamped, as the gather reads it). -/
theorem W3_v30 : W3 m ρ c (Proc.devRef .tc main_v30) = Cert.ReferenceIdeal.Read.val_main_v31 (F := Ideal) (m ((c : Thread nD τ).loc main_arg1)) := by
  have e3 := W2_v3 m ρ c
  have e6 := W2_v6 m ρ c
  have e15 := W2_v15 m ρ c
  show StableHlo.after hostOps0_2 (W2 m ρ c) (Proc.devRef .tc main_v30) = _
  generalize W2 m ρ c = V at e3 e6 e15 ⊢
  after_results_simp
  rw [e3, e6, e15]
  rfl

/-- The weights' operations leave the source vector alone. -/
theorem W3_v3' : W3 m ρ c (Proc.devRef .tc main_v3) = W2 m ρ c (Proc.devRef .tc main_v3) :=
  calc W3 m ρ c (Proc.devRef .tc main_v3)
    _ = W2 m ρ c (Proc.devRef .tc main_v3) := by keeps [hostOps0_2]

/-- … and the destination vector. -/
theorem W3_v6' : W3 m ρ c (Proc.devRef .tc main_v6) = W2 m ρ c (Proc.devRef .tc main_v6) :=
  calc W3 m ρ c (Proc.devRef .tc main_v6)
    _ = W2 m ρ c (Proc.devRef .tc main_v6) := by keeps [hostOps0_2]

theorem W3_v3 : W3 m ρ c (Proc.devRef .tc main_v3) = Cert.ReferenceIdeal.Read.val_main_v3 (F := Ideal) (m ((c : Thread nD τ).loc main_arg1)) := (W3_v3' m ρ c).trans (W2_v3 m ρ c)
theorem W3_v6 : W3 m ρ c (Proc.devRef .tc main_v6) = Cert.ReferenceIdeal.Read.val_main_v6 (F := Ideal) (m ((c : Thread nD τ).loc main_arg1)) := (W3_v6' m ρ c).trans (W2_v6 m ρ c)

/-! ## Buffers the later segments leave alone -/

/-- The first region writes its own output only. -/
theorem W4_v3' : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- Neither do the segments up to the third region's exit write it. -/
theorem W8_v3' : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by keeps [hostOps2]
    _ = W5 m ρ c (Proc.devRef .tc main_v3) := W6_of_ne m ρ c main_v3 (by decide)
    _ = W4 m ρ c (Proc.devRef .tc main_v3) := by keeps [hostOps1]
    _ = W3 m ρ c (Proc.devRef .tc main_v3) := W4_of_ne m ρ c main_v3 (by decide)

/-- The first region writes its own output only. -/
theorem W4_v6' : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- Neither do the segments up to the third region's exit write it. -/
theorem W8_v6' : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by keeps [hostOps2]
    _ = W5 m ρ c (Proc.devRef .tc main_v6) := W6_of_ne m ρ c main_v6 (by decide)
    _ = W4 m ρ c (Proc.devRef .tc main_v6) := by keeps [hostOps1]
    _ = W3 m ρ c (Proc.devRef .tc main_v6) := W4_of_ne m ρ c main_v6 (by decide)

/-- The first region writes its own output only. -/
theorem W4_v30' : W4 m ρ c (Proc.devRef .tc main_v30) = W3 m ρ c (Proc.devRef .tc main_v30) :=
  calc W4 m ρ c (Proc.devRef .tc main_v30)
    _ = W3 m ρ c (Proc.devRef .tc main_v30) := W4_of_ne m ρ c main_v30 (by decide)

/-- Neither do the segments up to the third region's exit write it. -/
theorem W8_v30' : W8 m ρ c (Proc.devRef .tc main_v30) = W3 m ρ c (Proc.devRef .tc main_v30) :=
  calc W8 m ρ c (Proc.devRef .tc main_v30)
    _ = W7 m ρ c (Proc.devRef .tc main_v30) := W8_of_ne m ρ c main_v30 (by decide)
    _ = W6 m ρ c (Proc.devRef .tc main_v30) := by keeps [hostOps2]
    _ = W5 m ρ c (Proc.devRef .tc main_v30) := W6_of_ne m ρ c main_v30 (by decide)
    _ = W4 m ρ c (Proc.devRef .tc main_v30) := by keeps [hostOps1]
    _ = W3 m ρ c (Proc.devRef .tc main_v30) := W4_of_ne m ρ c main_v30 (by decide)

/-- An argument array is as launched when the first region is entered. -/
theorem W3_arg0 : W3 m ρ c (Proc.devRef .tc main_arg0) = m ((c : Thread nD τ).loc main_arg0) :=
  calc W3 m ρ c (Proc.devRef .tc main_arg0)
    _ = W2 m ρ c (Proc.devRef .tc main_arg0) := by keeps [hostOps0_2]
    _ = W1 m ρ c (Proc.devRef .tc main_arg0) := by keeps [hostOps0_1]
    _ = W0 m ρ c (Proc.devRef .tc main_arg0) := by keeps [hostOps0]
    _ = m ((c : Thread nD τ).loc main_arg0) := rfl

/-- An argument array is as launched when the first region is entered. -/
theorem W3_arg2 : W3 m ρ c (Proc.devRef .tc main_arg2) = m ((c : Thread nD τ).loc main_arg2) :=
  calc W3 m ρ c (Proc.devRef .tc main_arg2)
    _ = W2 m ρ c (Proc.devRef .tc main_arg2) := by keeps [hostOps0_2]
    _ = W1 m ρ c (Proc.devRef .tc main_arg2) := by keeps [hostOps0_1]
    _ = W0 m ρ c (Proc.devRef .tc main_arg2) := by keeps [hostOps0]
    _ = m ((c : Thread nD τ).loc main_arg2) := rfl

/-- The first bias is as launched after the first region. -/
theorem W4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by keeps [hostOps0_2]
    _ = W1 m ρ c (Proc.devRef .tc main_arg3) := by keeps [hostOps0_1]
    _ = W0 m ρ c (Proc.devRef .tc main_arg3) := by keeps [hostOps0]
    _ = m ((c : Thread nD τ).loc main_arg3) := rfl

/-- A second-layer weight matrix is as launched after the second region. -/
theorem W6_arg4 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by keeps [hostOps1]
    _ = W3 m ρ c (Proc.devRef .tc main_arg4) := W4_of_ne m ρ c main_arg4 (by decide)
    _ = W2 m ρ c (Proc.devRef .tc main_arg4) := by keeps [hostOps0_2]
    _ = W1 m ρ c (Proc.devRef .tc main_arg4) := by keeps [hostOps0_1]
    _ = W0 m ρ c (Proc.devRef .tc main_arg4) := by keeps [hostOps0]
    _ = m ((c : Thread nD τ).loc main_arg4) := rfl

/-- A second-layer weight matrix is as launched after the second region. -/
theorem W6_arg6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by keeps [hostOps1]
    _ = W3 m ρ c (Proc.devRef .tc main_arg6) := W4_of_ne m ρ c main_arg6 (by decide)
    _ = W2 m ρ c (Proc.devRef .tc main_arg6) := by keeps [hostOps0_2]
    _ = W1 m ρ c (Proc.devRef .tc main_arg6) := by keeps [hostOps0_1]
    _ = W0 m ρ c (Proc.devRef .tc main_arg6) := by keeps [hostOps0]
    _ = m ((c : Thread nD τ).loc main_arg6) := rfl

/-- A second-layer bias is as launched after the third region. -/
theorem W8_arg5 : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := by keeps [hostOps2]
    _ = W5 m ρ c (Proc.devRef .tc main_arg5) := W6_of_ne m ρ c main_arg5 (by decide)
    _ = W4 m ρ c (Proc.devRef .tc main_arg5) := by keeps [hostOps1]
    _ = W3 m ρ c (Proc.devRef .tc main_arg5) := W4_of_ne m ρ c main_arg5 (by decide)
    _ = W2 m ρ c (Proc.devRef .tc main_arg5) := by keeps [hostOps0_2]
    _ = W1 m ρ c (Proc.devRef .tc main_arg5) := by keeps [hostOps0_1]
    _ = W0 m ρ c (Proc.devRef .tc main_arg5) := by keeps [hostOps0]
    _ = m ((c : Thread nD τ).loc main_arg5) := rfl

/-- A second-layer bias is as launched after the third region. -/
theorem W8_arg7 : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by keeps [hostOps2]
    _ = W5 m ρ c (Proc.devRef .tc main_arg7) := W6_of_ne m ρ c main_arg7 (by decide)
    _ = W4 m ρ c (Proc.devRef .tc main_arg7) := by keeps [hostOps1]
    _ = W3 m ρ c (Proc.devRef .tc main_arg7) := W4_of_ne m ρ c main_arg7 (by decide)
    _ = W2 m ρ c (Proc.devRef .tc main_arg7) := by keeps [hostOps0_2]
    _ = W1 m ρ c (Proc.devRef .tc main_arg7) := by keeps [hostOps0_1]
    _ = W0 m ρ c (Proc.devRef .tc main_arg7) := by keeps [hostOps0]
    _ = m ((c : Thread nD τ).loc main_arg7) := rfl

/-- Joining the two weight matrices leaves the first layer's output alone. -/
theorem W7_v46' : W7 m ρ c (Proc.devRef .tc main_v46) = W6 m ρ c (Proc.devRef .tc main_v46) :=
  calc W7 m ρ c (Proc.devRef .tc main_v46)
    _ = W6 m ρ c (Proc.devRef .tc main_v46) := by keeps [hostOps2]

theorem W4_v3 : W4 m ρ c (Proc.devRef .tc main_v3) = Cert.ReferenceIdeal.Read.val_main_v3 (F := Ideal) (m ((c : Thread nD τ).loc main_arg1)) := (W4_v3' m ρ c).trans (W3_v3 m ρ c)
theorem W4_v6 : W4 m ρ c (Proc.devRef .tc main_v6) = Cert.ReferenceIdeal.Read.val_main_v6 (F := Ideal) (m ((c : Thread nD τ).loc main_arg1)) := (W4_v6' m ρ c).trans (W3_v6 m ρ c)
theorem W4_v30 : W4 m ρ c (Proc.devRef .tc main_v30) = Cert.ReferenceIdeal.Read.val_main_v31 (F := Ideal) (m ((c : Thread nD τ).loc main_arg1)) := (W4_v30' m ρ c).trans (W3_v30 m ρ c)
theorem W8_v3 : W8 m ρ c (Proc.devRef .tc main_v3) = Cert.ReferenceIdeal.Read.val_main_v3 (F := Ideal) (m ((c : Thread nD τ).loc main_arg1)) := (W8_v3' m ρ c).trans (W3_v3 m ρ c)
theorem W8_v6 : W8 m ρ c (Proc.devRef .tc main_v6) = Cert.ReferenceIdeal.Read.val_main_v6 (F := Ideal) (m ((c : Thread nD τ).loc main_arg1)) := (W8_v6' m ρ c).trans (W3_v6 m ρ c)
theorem W8_v30 : W8 m ρ c (Proc.devRef .tc main_v30) = Cert.ReferenceIdeal.Read.val_main_v31 (F := Ideal) (m ((c : Thread nD τ).loc main_arg1)) := (W8_v30' m ρ c).trans (W3_v30 m ρ c)

end Cert.KernelIdeal.Walk

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«157116_j54597624267033_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«157116_j54597624267033_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«157116_j54597624267033_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.Finals.lean ====
/-
  WHAT EACH REGION'S OUTPUT ARRAY HOLDS AFTER THE REGION, at the ideal values.

  The program runs four grids of twenty points over blocks of 5000 rows.  At every point the block of rows of the tall
  input is read where the output's block of rows is written, and the second operand is read whole.  So what a point
  writes back is a block of rows of ONE function of the whole input arrays, and the twenty blocks tile the output
  array: the array ends holding that function.
  • regions 0 and 2: the product of the tall array and the small one (`prodArr`);
  • region 1: the larger of (entry plus the bias of its column) and the value of the all-zero word;
  • region 3: entry plus the bias of its column, the left 32 columns in one output and the right 32 in the other.
  Everything is generic in the arrays' contents when the region is entered.
-/
import proofs.«157116_j54597624267033_1_alg».proof.Proof.Gen.KernelIdeal.Frame
import proofs.«157116_j54597624267033_1_alg».proof.Proof.LibRegionRows
import Idealize.ShloMosaic.Lib.Pipeline.Value

set_option maxRecDepth 16384

noncomputable section

open scoped BigOperators

namespace Cert.KernelIdeal.Finals

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.RegionValue

variable (V : (c : Dev nD) → (b : Ref sig .tc) → Buf (Elt Ideal) ((c : Thread nD τ).loc b)) (c : Dev nD)

/-- The offsets `(0, 0)` of a whole-buffer access are the zero function. -/
theorem offsets_zero : (![0, 0] : Fin 2 → Nat) = fun _ => 0 := off2_zero

/-! ## Region 0: the first product -/

/-- The index maps over the twenty points: the left operand's block of rows moves with the output's, which is the
    point's number; every other block index is zero. -/
theorem block_index0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- The body at an index `y` of the block: the product of the whole arrays at the index `off` rows down, when the left
    block is the left array read `off` rows down and the right block is the right array. -/
theorem pay0_apply (x0 : Vec Ideal S5000x128 .f32) (x1 : Vec Ideal S128x48 .f32)
    (A : S100000x128.Idx → EReal) (W : S128x48.Idx → EReal) (off : ℕ) (y : S5000x48.Idx) (i : S100000x48.Idx)
    (hi0 : (i 0).val = off + (y 0).val) (hi1 : (i 1).val = (y 1).val)
    (ha : ∀ (u : S5000x128.Idx) (z : S100000x128.Idx), (z 0).val = off + (u 0).val → (z 1).val = (u 1).val → (x0 u : EReal) = A z)
    (hw : ∀ u : S128x48.Idx, (x1 u : EReal) = W u) :
    (k0_pay1 x0 x1 y : EReal) = prodArr A W i :=
  block_prod (R := 5000) (R' := 100000) (K := 128) (N := 48) none (truncf .bf16 x0 bitsLt_bf16_f32) (truncf .bf16 x1 bitsLt_bf16_f32)
    A W off y i hi0 hi1 ha hw

/-- What point `t` writes back is block `t` of the product of the arrays as the region finds them. -/
theorem flushed0_eq (t : Fin cfg0.N) :
    (dat0 (F := Ideal) V c).flushed 2 t
      = ((cfg0.win 2).blk t).view.read (Elt Ideal) (prodArr (R := 100000) (K := 128) (N := 48) (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x48) offsets_zero]
  obtain ⟨e0, e1, e2, e3, e4, e5⟩ := block_index0 t
  funext j
  show (k0_pay1 (iblk0 V c 0 t) (iblk0 V c 1 t) j : EReal)
    = prodArr (V c main_arg0) (V c main_arg2) (((cfg0.win 2).blk t).view.emb j)
  refine pay0_apply (iblk0 V c 0 t) (iblk0 V c 1 t) (V c main_arg0) (V c main_arg2) (win0_2.index t (0 : Fin 2) * 5000) j _ ?_ ?_ ?_ ?_
  · show win0_2.index t (0 : Fin 2) * 5000 + 1 * (j 0).val = win0_2.index t (0 : Fin 2) * 5000 + (j 0).val
    omega
  · show win0_2.index t (1 : Fin 2) * 48 + 1 * (j 1).val = (j 1).val
    omega
  · intro u z hz0 hz1
    unfold iblk0
    rw [View.read_apply]
    show V c main_arg0 (((cfg0.win 0).blk t).view.emb u) = V c main_arg0 z
    congr 1
    funext a
    apply Fin.ext
    match a with
    | ⟨0, _⟩ => show win0_0.index t (0 : Fin 2) * 5000 + 1 * (u 0).val = (z 0).val; omega
    | ⟨1, _⟩ => show win0_0.index t (1 : Fin 2) * 128 + 1 * (u 1).val = (z 1).val; omega
  · intro u
    unfold iblk0
    rw [View.read_apply]
    show V c main_arg2 (((cfg0.win 1).blk t).view.emb u) = V c main_arg2 u
    congr 1
    funext a
    apply Fin.ext
    match a with
    | ⟨0, _⟩ => show win0_1.index t (0 : Fin 2) * 128 + 1 * (u 0).val = (u 0).val; omega
    | ⟨1, _⟩ => show win0_1.index t (1 : Fin 2) * 48 + 1 * (u 1).val = (u 1).val; omega

/-- An index of the output array is in point `t`'s block iff each coordinate is in the block's range on its axis. -/
theorem mem_blk0 (t : Fin cfg0.N) (i : S100000x48.Idx) :
    i ∈ ((cfg0.win 2).blk t).view.set ↔ ∀ a : Fin 2, win0_2.index t a * S5000x48.size a ≤ (i a).val
      ∧ (i a).val < win0_2.index t a * S5000x48.size a + S5000x48.size a := by
  show i ∈ ((View.whole main_v31).slice (win0_2.rect t)).set ↔ _
  rw [View.set_slice_whole, Rect.mem_set_unit]
  exact Iff.rfl

/-- Every index of the output array is in the block of the point numbered by its row divided by 5000. -/
theorem cover0 (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  have hN : cfg0.N = 20 := N_0
  let t : Fin cfg0.N := ⟨(i 0).val / 5000, by rw [hN]; omega⟩
  obtain ⟨e0, e1, e2, e3, e4, e5⟩ := block_index0 t
  have e5' : win0_2.index t (0 : Fin 2) = (i 0).val / 5000 := e5
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 48 ≤ (i 1).val ∧ (i 1).val < win0_2.index t (1 : Fin 2) * 48 + 48
    omega

/-- After region 0 its output array holds the product of the two input arrays. -/
theorem final0 : (dat0 (F := Ideal) V c).arrAt 2 cfg0.N
    = prodArr (R := 100000) (K := 128) (N := 48) (V c main_arg0) (V c main_arg2) :=
  (dat0 (F := Ideal) V c).arrAt_eq_of_cover 2 _ (fun t _ => flushed0_eq V c t) cover0

/-! ## Region 2: the second product -/

/-- The index maps over the twenty points: the left operand's block of rows moves with the output's, which is the
    point's number; every other block index is zero. -/
theorem block_index2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- The body at an index `y` of the block: the product of the whole arrays at the index `off` rows down, when the left
    block is the left array read `off` rows down and the right block is the right array.  The body first casts each
    operand to its own shape, which changes nothing. -/
theorem pay2_apply (x0 : Vec Ideal S5000x48 .f32) (x1 : Vec Ideal S48x64 .f32)
    (A : S100000x48.Idx → EReal) (W : S48x64.Idx → EReal) (off : ℕ) (y : S5000x64.Idx) (i : S100000x64.Idx)
    (hi0 : (i 0).val = off + (y 0).val) (hi1 : (i 1).val = (y 1).val)
    (ha : ∀ (u : S5000x48.Idx) (z : S100000x48.Idx), (z 0).val = off + (u 0).val → (z 1).val = (u 1).val → (x0 u : EReal) = A z)
    (hw : ∀ u : S48x64.Idx, (x1 u : EReal) = W u) :
    (k2_pay1 x0 x1 y : EReal) = prodArr A W i :=
  block_prod (R := 5000) (R' := 100000) (K := 48) (N := 64) none
    (truncf .bf16 (shapeCast S5000x48 x0 shapeCasts_S5000x48_S5000x48) bitsLt_bf16_f32)
    (truncf .bf16 (shapeCast S48x64 x1 shapeCasts_S48x64_S48x64) bitsLt_bf16_f32)
    A W off y i hi0 hi1
    (fun u z h0 h1 => by
      rw [← ha u z h0 h1]
      show shapeCast S5000x48 x0 shapeCasts_S5000x48_S5000x48 u = x0 u
      rw [shapeCast_self])
    (fun u => by
      rw [← hw u]
      show shapeCast S48x64 x1 shapeCasts_S48x64_S48x64 u = x1 u
      rw [shapeCast_self])

/-- What point `t` writes back is block `t` of the product of the arrays as the region finds them. -/
theorem flushed2_eq (t : Fin cfg2.N) :
    (dat2 (F := Ideal) V c).flushed 2 t
      = ((cfg2.win 2).blk t).view.read (Elt Ideal) (prodArr (R := 100000) (K := 48) (N := 64) (V c main_v46) (V c main_v47)) := by
  show (cfg2.win 2).cut (grid2.coords t) ((dat2 V c).after 2 t) = _
  rw [after2_2]
  unfold out2_2
  rw [View.canon_unit_zero offsets_zero]
  simp only [View.ld_unit_zero (S := S5000x48) offsets_zero, View.ld_unit_zero (S := S48x64) offsets_zero]
  obtain ⟨e0, e1, e2, e3, e4, e5⟩ := block_index2 t
  funext j
  show (k2_pay1 (iblk2 V c 0 t) (iblk2 V c 1 t) j : EReal)
    = prodArr (V c main_v46) (V c main_v47) (((cfg2.win 2).blk t).view.emb j)
  refine pay2_apply (iblk2 V c 0 t) (iblk2 V c 1 t) (V c main_v46) (V c main_v47) (win2_2.index t (0 : Fin 2) * 5000) j _ ?_ ?_ ?_ ?_
  · show win2_2.index t (0 : Fin 2) * 5000 + 1 * (j 0).val = win2_2.index t (0 : Fin 2) * 5000 + (j 0).val
    omega
  · show win2_2.index t (1 : Fin 2) * 64 + 1 * (j 1).val = (j 1).val
    omega
  · intro u z hz0 hz1
    unfold iblk2
    rw [View.read_apply]
    show V c main_v46 (((cfg2.win 0).blk t).view.emb u) = V c main_v46 z
    congr 1
    funext a
    apply Fin.ext
    match a with
    | ⟨0, _⟩ => show win2_0.index t (0 : Fin 2) * 5000 + 1 * (u 0).val = (z 0).val; omega
    | ⟨1, _⟩ => show win2_0.index t (1 : Fin 2) * 48 + 1 * (u 1).val = (z 1).val; omega
  · intro u
    unfold iblk2
    rw [View.read_apply]
    show V c main_v47 (((cfg2.win 1).blk t).view.emb u) = V c main_v47 u
    congr 1
    funext a
    apply Fin.ext
    match a with
    | ⟨0, _⟩ => show win2_1.index t (0 : Fin 2) * 48 + 1 * (u 0).val = (u 0).val; omega
    | ⟨1, _⟩ => show win2_1.index t (1 : Fin 2) * 64 + 1 * (u 1).val = (u 1).val; omega

/-- An index of the output array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v48).slice (win2_2.rect t)).set ↔ _
  rw [View.set_slice_whole, Rect.mem_set_unit]
  exact Iff.rfl

/-- Every index of the output array is in the block of the point numbered by its row divided by 5000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e0, e1, e2, e3, e4, e5⟩ := block_index2 t
  have e5' : win2_2.index t (0 : Fin 2) = (i 0).val / 5000 := e5
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- After region 2 its output array holds the product of the two input arrays. -/
theorem final2 : (dat2 (F := Ideal) V c).arrAt 2 cfg2.N
    = prodArr (R := 100000) (K := 48) (N := 64) (V c main_v46) (V c main_v47) :=
  (dat2 (F := Ideal) V c).arrAt_eq_of_cover 2 _ (fun t _ => flushed2_eq V c t) cover2

/-! ## Region 1: the bias and the rectifier -/

/-- The index maps over the twenty points: the input's block of rows moves with the output's, which is the point's
    number; every other block index is zero. -/
theorem block_index1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- The body at `(p, q)` of the block: the larger of (the entry plus the one-row bias at column `q`) and the value of
    the all-zero word.  The casts of an array to its own shape change nothing. -/
theorem pay1_apply (b : Vec Ideal S1x48 .f32) (x : Vec Ideal S5000x48 .f32) (p : Fin 5000) (q : Fin 48) :
    (k1_pay1 b x (ix2 p q) : EReal) = max (x (ix2 p q) + b (ix2 (0 : Fin 1) q)) (Ideal.ofBits .f32 0x00000000#32) := by
  show max (shapeCast S5000x48 x shapeCasts_S5000x48_S5000x48 (ix2 p q)
      + broadcastTo S5000x48 (shapeCast S1x48 (shapeCast S1x48 b shapeCasts_S1x48_S1x48) shapeCasts_S1x48_S1x48)
          broadcasts_S1x48_S5000x48 (ix2 p q))
      (Ideal.ofBits .f32 0x00000000#32) = _
  rw [shapeCast_self, shapeCast_self, shapeCast_self, broadcastTo_1b_ab_apply]

/-- The same at an index `y` of the block against whole arrays `X` and `B` read at an index `i`: when the block's
    entry at `y` is `X` at `i` and the bias block at `y`'s column is `B` at `i`'s column. -/
theorem pay1_block (b : Vec Ideal S1x48 .f32) (x : Vec Ideal S5000x48 .f32)
    (X : S100000x48.Idx → EReal) (B : S1x48.Idx → EReal) (y : S5000x48.Idx) (i : S100000x48.Idx)
    (hx : (x y : EReal) = X i) (hb : (b (ix2 (0 : Fin 1) (y 1)) : EReal) = B (ix2 (0 : Fin 1) (i 1))) :
    (k1_pay1 b x y : EReal) = max (X i + B (ix2 (0 : Fin 1) (i 1))) (Ideal.ofBits .f32 0x00000000#32) := by
  rw [← hx, ← hb]
  obtain ⟨p, q, rfl⟩ : ∃ (p : Fin 5000) (q : Fin 48), y = ix2 p q := ⟨y 0, y 1, eq_ix2 y⟩
  exact pay1_apply b x p q

/-- What point `t` writes back is block `t` of that function of the arrays as the region finds them. -/
theorem flushed1_eq (t : Fin cfg1.N) :
    (dat1 (F := Ideal) V c).flushed 2 t
      = ((cfg1.win 2).blk t).view.read (Elt Ideal)
          (fun i : S100000x48.Idx => max (realArr S100000x48 (V c main_v44) i + realArr S1x48 (V c main_v45) (ix2 (0 : Fin 1) (i 1))) (Ideal.ofBits .f32 0x00000000#32) : S100000x48.Idx → EReal) := by
  show (cfg1.win 2).cut (grid1.coords t) ((dat1 V c).after 2 t) = _
  rw [after1_2]
  unfold out1_2
  rw [View.canon_unit_zero offsets_zero]
  simp only [View.ld_unit_zero (S := S5000x48) offsets_zero, View.ld_unit_zero (S := S1x48) offsets_zero]
  obtain ⟨e0, e1, e2, e3, e4, e5⟩ := block_index1 t
  funext j
  show (k1_pay1 (iblk1 V c 1 t) (iblk1 V c 0 t) j : EReal)
    = max (realArr S100000x48 (V c main_v44) (((cfg1.win 2).blk t).view.emb j)
        + realArr S1x48 (V c main_v45) (ix2 (0 : Fin 1) ((((cfg1.win 2).blk t).view.emb j) 1))) (Ideal.ofBits .f32 0x00000000#32)
  refine pay1_block (iblk1 V c 1 t) (iblk1 V c 0 t) (realArr S100000x48 (V c main_v44)) (realArr S1x48 (V c main_v45)) j _ ?_ ?_
  · unfold iblk1
    rw [View.read_apply]
    show V c main_v44 (((cfg1.win 0).blk t).view.emb j) = V c main_v44 (((cfg1.win 2).blk t).view.emb j)
    refine congrArg (V c main_v44) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 48 + 1 * (j 1).val = win1_2.index t (1 : Fin 2) * 48 + 1 * (j 1).val
      omega
  · unfold iblk1
    rw [View.read_apply]
    show V c main_v45 (((cfg1.win 1).blk t).view.emb (ix2 (0 : Fin 1) (j 1)))
      = V c main_v45 (ix2 (0 : Fin 1) ((((cfg1.win 2).blk t).view.emb j) 1))
    refine congrArg (V c main_v45) (funext fun a => Fin.ext ?_)
    match a with
    | ⟨0, _⟩ =>
      show win1_1.index t (0 : Fin 2) * 1 + 1 * 0 = 0
      omega
    | ⟨1, _⟩ =>
      show win1_1.index t (1 : Fin 2) * 48 + 1 * (j 1).val = win1_2.index t (1 : Fin 2) * 48 + 1 * (j 1).val
      omega

/-- An index of the output array is in point `t`'s block iff each coordinate is in the block's range on its axis. -/
theorem mem_blk1 (t : Fin cfg1.N) (i : S100000x48.Idx) :
    i ∈ ((cfg1.win 2).blk t).view.set ↔ ∀ a : Fin 2, win1_2.index t a * S5000x48.size a ≤ (i a).val
      ∧ (i a).val < win1_2.index t a * S5000x48.size a + S5000x48.size a := by
  show i ∈ ((View.whole main_v46).slice (win1_2.rect t)).set ↔ _
  rw [View.set_slice_whole, Rect.mem_set_unit]
  exact Iff.rfl

/-- Every index of the output array is in the block of the point numbered by its row divided by 5000. -/
theorem cover1 (i : S100000x48.Idx) :
    ∃ t : Fin cfg1.N, (cfg1.win 2).flush t = true ∧ i ∈ ((cfg1.win 2).blk t).view.set := by
  have hi0 : (i 0).val < 100000 := (i 0).isLt
  have hi1 : (i 1).val < 48 := (i 1).isLt
  have hN : cfg1.N = 20 := N_1
  let t : Fin cfg1.N := ⟨(i 0).val / 5000, by rw [hN]; omega⟩
  obtain ⟨e0, e1, e2, e3, e4, e5⟩ := block_index1 t
  have e5' : win1_2.index t (0 : Fin 2) = (i 0).val / 5000 := e5
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 48 ≤ (i 1).val ∧ (i 1).val < win1_2.index t (1 : Fin 2) * 48 + 48
    omega

/-- After region 1 its output array holds, at every index, the larger of (the input's entry plus the bias of its
    column) and the value of the all-zero word. -/
theorem final1 : (dat1 (F := Ideal) V c).arrAt 2 cfg1.N
    = (fun i : S100000x48.Idx => max (realArr S100000x48 (V c main_v44) i + realArr S1x48 (V c main_v45) (ix2 (0 : Fin 1) (i 1))) (Ideal.ofBits .f32 0x00000000#32) : S100000x48.Idx → EReal) :=
  (dat1 (F := Ideal) V c).arrAt_eq_of_cover 2 _ (fun t _ => flushed1_eq V c t) cover1

/-! ## Region 3: the bias, and the split into the left and the right 32 columns -/

/-- The index maps over the twenty points: the input's block of rows moves with both outputs', which is the point's
    number; every other block index is zero. -/
theorem block_index3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0 :=
  (by decide +kernel : ∀ t : Fin grid3.N, _)

/-- The sum the body forms, at `(p, q)` of the 64-column block: the entry plus the one-row bias at column `q`.  The
    casts of an array to its own shape change nothing. -/
theorem pay3_sum (b : Vec Ideal S1x64 .f32) (x : Vec Ideal S5000x64 .f32) (p : Fin 5000) (q : Fin 64) :
    (k3_pay1 b x (ix2 p q) : EReal) = x (ix2 p q) + b (ix2 (0 : Fin 1) q) := by
  show shapeCast S5000x64 x shapeCasts_S5000x64_S5000x64 (ix2 p q)
      + broadcastTo S5000x64 (shapeCast S1x64 (shapeCast S1x64 b shapeCasts_S1x64_S1x64) shapeCasts_S1x64_S1x64)
          broadcasts_S1x64_S5000x64 (ix2 p q) = _
  rw [shapeCast_self, shapeCast_self, shapeCast_self, broadcastTo_1b_ab_apply]

/-- The left 32 columns cut out of a 64-column block, read at `(p, q)`: the block at the same column. -/
theorem slice_left (v : S5000x64.Idx → EReal) (p : Fin 5000) (q : Fin 32) (q' : Fin 64) (hq : q'.val = q.val) :
    extractStridedSlice S5000x32 ![0, 0] v slices_S5000x64_o0_0_S5000x32 (ix2 p q) = v (ix2 p q') :=
  extractStridedSlice_apply ![0, 0] v slices_S5000x64_o0_0_S5000x32 (ix2 p q) (ix2 p q') fun a => by
    match a with
    | ⟨0, _⟩ => exact (Nat.zero_add _).symm
    | ⟨1, _⟩ => show q'.val = 0 + q.val; omega

/-- The right 32 columns cut out of a 64-column block, read at `(p, q)`: the block 32 columns to the right. -/
theorem slice_right (v : S5000x64.Idx → EReal) (p : Fin 5000) (q : Fin 32) (q' : Fin 64) (hq : q'.val = q.val + 32) :
    extractStridedSlice S5000x32 ![0, 32] v slices_S5000x64_o0_32_S5000x32 (ix2 p q) = v (ix2 p q') :=
  extractStridedSlice_apply ![0, 32] v slices_S5000x64_o0_32_S5000x32 (ix2 p q) (ix2 p q') fun a => by
    match a with
    | ⟨0, _⟩ => exact (Nat.zero_add _).symm
    | ⟨1, _⟩ => show q'.val = 32 + q.val; omega

/-- The left output's body at `(p, q)`: the sum at the same column `q` of the 64. -/
theorem pay3_left (b : Vec Ideal S1x64 .f32) (x : Vec Ideal S5000x64 .f32) (p : Fin 5000) (q : Fin 32) (q' : Fin 64)
    (hq : q'.val = q.val) :
    (k3_pay2 b x (ix2 p q) : EReal) = x (ix2 p q') + b (ix2 (0 : Fin 1) q') := by
  rw [← pay3_sum b x p q']
  exact slice_left (k3_pay1 b x) p q q' hq

/-- The right output's body at `(p, q)`: the sum at column `q + 32` of the 64. -/
theorem pay3_right (b : Vec Ideal S1x64 .f32) (x : Vec Ideal S5000x64 .f32) (p : Fin 5000) (q : Fin 32) (q' : Fin 64)
    (hq : q'.val = q.val + 32) :
    (k3_pay3 b x (ix2 p q) : EReal) = x (ix2 p q') + b (ix2 (0 : Fin 1) q') := by
  rw [← pay3_sum b x p q']
  exact slice_right (k3_pay1 b x) p q q' hq

/-- The left body at an index `y` of the block against whole arrays: when the input block at `y`'s row and column `q'`
    is `X` at `z` and the bias block at column `q'` is `B` at `zb`. -/
theorem pay3_left_block (b : Vec Ideal S1x64 .f32) (x : Vec Ideal S5000x64 .f32)
    (X : S100000x64.Idx → EReal) (B : S1x64.Idx → EReal) (y : S5000x32.Idx) (z : S100000x64.Idx) (zb : S1x64.Idx)
    (q' : Fin 64) (hq : q'.val = (y 1).val)
    (hx : (x (ix2 (y 0) q') : EReal) = X z) (hb : (b (ix2 (0 : Fin 1) q') : EReal) = B zb) :
    (k3_pay2 b x y : EReal) = X z + B zb := by
  rw [← hx, ← hb]
  obtain ⟨p, q, rfl⟩ : ∃ (p : Fin 5000) (q : Fin 32), y = ix2 p q := ⟨y 0, y 1, eq_ix2 y⟩
  exact pay3_left b x p q q' hq

/-- The right body at an index `y` of the block against whole arrays, the same with column `q'` 32 to the right. -/
theorem pay3_right_block (b : Vec Ideal S1x64 .f32) (x : Vec Ideal S5000x64 .f32)
    (X : S100000x64.Idx → EReal) (B : S1x64.Idx → EReal) (y : S5000x32.Idx) (z : S100000x64.Idx) (zb : S1x64.Idx)
    (q' : Fin 64) (hq : q'.val = (y 1).val + 32)
    (hx : (x (ix2 (y 0) q') : EReal) = X z) (hb : (b (ix2 (0 : Fin 1) q') : EReal) = B zb) :
    (k3_pay3 b x y : EReal) = X z + B zb := by
  rw [← hx, ← hb]
  obtain ⟨p, q, rfl⟩ : ∃ (p : Fin 5000) (q : Fin 32), y = ix2 p q := ⟨y 0, y 1, eq_ix2 y⟩
  exact pay3_right b x p q q' hq

/-- Column `q` of a 32-column array, as a column of the 64. -/
abbrev colL (q : Fin 32) : Fin 64 := ⟨q.val, by omega⟩
/-- Column `q` of a 32-column array, as the column 32 to the right among the 64. -/
abbrev colR (q : Fin 32) : Fin 64 := ⟨q.val + 32, by omega⟩

/-- What point `t` writes back to the left output is block `t` of (entry plus bias) at the same column. -/
theorem flushed3a_eq (t : Fin cfg3.N) :
    (dat3 (F := Ideal) V c).flushed 2 t
      = ((cfg3.win 2).blk t).view.read (Elt Ideal)
          (fun i : S100000x32.Idx => realArr S100000x64 (V c main_v61) (ix2 (i 0) (colL (i 1)))
            + realArr S1x64 (V c main_v63) (ix2 (0 : Fin 1) (colL (i 1))) : S100000x32.Idx → EReal) := by
  show (cfg3.win 2).cut (grid3.coords t) ((dat3 V c).after 2 t) = _
  rw [after3_2]
  unfold out3_2
  rw [View.canon_unit_zero offsets_zero]
  simp only [View.ld_unit_zero (S := S5000x64) offsets_zero, View.ld_unit_zero (S := S1x64) offsets_zero]
  obtain ⟨e0, e1, e2, e3, e4, e5, e6, e7⟩ := block_index3 t
  funext j
  have hj1 : (j 1).val < 32 := (j 1).isLt
  show (k3_pay2 (iblk3 V c 1 t) (iblk3 V c 0 t) j : EReal)
    = realArr S100000x64 (V c main_v61) (ix2 ((((cfg3.win 2).blk t).view.emb j) 0) (colL ((((cfg3.win 2).blk t).view.emb j) 1)))
      + realArr S1x64 (V c main_v63) (ix2 (0 : Fin 1) (colL ((((cfg3.win 2).blk t).view.emb j) 1)))
  refine pay3_left_block (iblk3 V c 1 t) (iblk3 V c 0 t) (realArr S100000x64 (V c main_v61)) (realArr S1x64 (V c main_v63)) j _ _
    ⟨(j 1).val, by omega⟩ rfl ?_ ?_
  · unfold iblk3
    rw [View.read_apply]
    show V c main_v61 (((cfg3.win 0).blk t).view.emb (ix2 (j 0) (⟨(j 1).val, by omega⟩ : Fin 64)))
      = V c main_v61 (ix2 ((((cfg3.win 2).blk t).view.emb j) 0) (colL ((((cfg3.win 2).blk t).view.emb j) 1)))
    refine congrArg (V c main_v61) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 64 + 1 * (j 1).val = win3_2.index t (1 : Fin 2) * 32 + 1 * (j 1).val
      omega
  · unfold iblk3
    rw [View.read_apply]
    show V c main_v63 (((cfg3.win 1).blk t).view.emb (ix2 (0 : Fin 1) (⟨(j 1).val, by omega⟩ : Fin 64)))
      = V c main_v63 (ix2 (0 : Fin 1) (colL ((((cfg3.win 2).blk t).view.emb j) 1)))
    refine congrArg (V c main_v63) (funext fun a => Fin.ext ?_)
    match a with
    | ⟨0, _⟩ =>
      show win3_1.index t (0 : Fin 2) * 1 + 1 * 0 = 0
      omega
    | ⟨1, _⟩ =>
      show win3_1.index t (1 : Fin 2) * 64 + 1 * (j 1).val = win3_2.index t (1 : Fin 2) * 32 + 1 * (j 1).val
      omega

/-- What point `t` writes back to the right output is block `t` of (entry plus bias) 32 columns to the right. -/
theorem flushed3b_eq (t : Fin cfg3.N) :
    (dat3 (F := Ideal) V c).flushed 3 t
      = ((cfg3.win 3).blk t).view.read (Elt Ideal)
          (fun i : S100000x32.Idx => realArr S100000x64 (V c main_v61) (ix2 (i 0) (colR (i 1)))
            + realArr S1x64 (V c main_v63) (ix2 (0 : Fin 1) (colR (i 1))) : S100000x32.Idx → EReal) := by
  show (cfg3.win 3).cut (grid3.coords t) ((dat3 V c).after 3 t) = _
  rw [after3_3]
  unfold out3_3
  rw [View.canon_unit_zero offsets_zero]
  simp only [View.ld_unit_zero (S := S5000x64) offsets_zero, View.ld_unit_zero (S := S1x64) offsets_zero]
  obtain ⟨e0, e1, e2, e3, e4, e5, e6, e7⟩ := block_index3 t
  funext j
  have hj1 : (j 1).val < 32 := (j 1).isLt
  show (k3_pay3 (iblk3 V c 1 t) (iblk3 V c 0 t) j : EReal)
    = realArr S100000x64 (V c main_v61) (ix2 ((((cfg3.win 3).blk t).view.emb j) 0) (colR ((((cfg3.win 3).blk t).view.emb j) 1)))
      + realArr S1x64 (V c main_v63) (ix2 (0 : Fin 1) (colR ((((cfg3.win 3).blk t).view.emb j) 1)))
  refine pay3_right_block (iblk3 V c 1 t) (iblk3 V c 0 t) (realArr S100000x64 (V c main_v61)) (realArr S1x64 (V c main_v63)) j _ _
    ⟨(j 1).val + 32, by omega⟩ rfl ?_ ?_
  · unfold iblk3
    rw [View.read_apply]
    show V c main_v61 (((cfg3.win 0).blk t).view.emb (ix2 (j 0) (⟨(j 1).val + 32, by omega⟩ : Fin 64)))
      = V c main_v61 (ix2 ((((cfg3.win 3).blk t).view.emb j) 0) (colR ((((cfg3.win 3).blk t).view.emb j) 1)))
    refine congrArg (V c main_v61) (funext fun a => Fin.ext ?_)
    match a with
    | ⟨0, _⟩ =>
      show win3_0.index t (0 : Fin 2) * 5000 + 1 * (j 0).val = win3_3.index t (0 : Fin 2) * 5000 + 1 * (j 0).val
      omega
    | ⟨1, _⟩ =>
      show win3_0.index t (1 : Fin 2) * 64 + 1 * ((j 1).val + 32) = win3_3.index t (1 : Fin 2) * 32 + 1 * (j 1).val + 32
      omega
  · unfold iblk3
    rw [View.read_apply]
    show V c main_v63 (((cfg3.win 1).blk t).view.emb (ix2 (0 : Fin 1) (⟨(j 1).val + 32, by omega⟩ : Fin 64)))
      = V c main_v63 (ix2 (0 : Fin 1) (colR ((((cfg3.win 3).blk t).view.emb j) 1)))
    refine congrArg (V c main_v63) (funext fun a => Fin.ext ?_)
    match a with
    | ⟨0, _⟩ =>
      show win3_1.index t (0 : Fin 2) * 1 + 1 * 0 = 0
      omega
    | ⟨1, _⟩ =>
      show win3_1.index t (1 : Fin 2) * 64 + 1 * ((j 1).val + 32) = win3_3.index t (1 : Fin 2) * 32 + 1 * (j 1).val + 32
      omega

/-- An index of the left output array is in point `t`'s block iff each coordinate is in the block's range on its axis. -/
theorem mem_blk3a (t : Fin cfg3.N) (i : S100000x32.Idx) :
    i ∈ ((cfg3.win 2).blk t).view.set ↔ ∀ a : Fin 2, win3_2.index t a * S5000x32.size a ≤ (i a).val
      ∧ (i a).val < win3_2.index t a * S5000x32.size a + S5000x32.size a := by
  show i ∈ ((View.whole main_v64_0).slice (win3_2.rect t)).set ↔ _
  rw [View.set_slice_whole, Rect.mem_set_unit]
  exact Iff.rfl

/-- The same for the right output array. -/
theorem mem_blk3b (t : Fin cfg3.N) (i : S100000x32.Idx) :
    i ∈ ((cfg3.win 3).blk t).view.set ↔ ∀ a : Fin 2, win3_3.index t a * S5000x32.size a ≤ (i a).val
      ∧ (i a).val < win3_3.index t a * S5000x32.size a + S5000x32.size a := by
  show i ∈ ((View.whole main_v64_1).slice (win3_3.rect t)).set ↔ _
  rw [View.set_slice_whole, Rect.mem_set_unit]
  exact Iff.rfl

/-- Every index of the left output array is in the block of the point numbered by its row divided by 5000. -/
theorem cover3a (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 20 := N_3
  let t : Fin cfg3.N := ⟨(i 0).val / 5000, by rw [hN]; omega⟩
  obtain ⟨e0, e1, e2, e3, e4, e5, e6, e7⟩ := block_index3 t
  have e4' : win3_2.index t (0 : Fin 2) = (i 0).val / 5000 := e4
  refine ⟨t, flush3_2 t, ?_⟩
  rw [mem_blk3a]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 32 ≤ (i 1).val ∧ (i 1).val < win3_2.index t (1 : Fin 2) * 32 + 32
    omega

/-- The same for the right output array. -/
theorem cover3b (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hN : cfg3.N = 20 := N_3
  let t : Fin cfg3.N := ⟨(i 0).val / 5000, by rw [hN]; omega⟩
  obtain ⟨e0, e1, e2, e3, e4, e5, e6, e7⟩ := block_index3 t
  have e6' : win3_3.index t (0 : Fin 2) = (i 0).val / 5000 := e6
  refine ⟨t, flush3_3 t, ?_⟩
  rw [mem_blk3b]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 32 ≤ (i 1).val ∧ (i 1).val < win3_3.index t (1 : Fin 2) * 32 + 32
    omega

/-- After region 3 its left output array holds, at `(r, q)`, the input's entry `(r, q)` plus the bias of column `q`. -/
theorem final3a : (dat3 (F := Ideal) V c).arrAt 2 cfg3.N
    = (fun i : S100000x32.Idx => realArr S100000x64 (V c main_v61) (ix2 (i 0) (colL (i 1)))
        + realArr S1x64 (V c main_v63) (ix2 (0 : Fin 1) (colL (i 1))) : S100000x32.Idx → EReal) :=
  (dat3 (F := Ideal) V c).arrAt_eq_of_cover 2 _ (fun t _ => flushed3a_eq V c t) cover3a

/-- After region 3 its right output array holds, at `(r, q)`, the input's entry `(r, q + 32)` plus the bias of column
    `q + 32`. -/
theorem final3b : (dat3 (F := Ideal) V c).arrAt 3 cfg3.N
    = (fun i : S100000x32.Idx => realArr S100000x64 (V c main_v61) (ix2 (i 0) (colR (i 1)))
        + realArr S1x64 (V c main_v63) (ix2 (0 : Fin 1) (colR (i 1))) : S100000x32.Idx → EReal) :=
  (dat3 (F := Ideal) V c).arrAt_eq_of_cover 3 _ (fun t _ => flushed3b_eq V c t) cover3b

end Cert.KernelIdeal.Finals

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«157116_j54597624267033_1_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«157116_j54597624267033_1_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibSegment.lean ====
/-
  ROW GATHER AND ACCUMULATING SCATTER READ AT AN INDEX.

  A graph layer gathers rows of an array [N, C] by a column of E start indices and adds E update rows
  into an array [N, C] at a column of E destination indices (x[idx] and a segment sum); the same for a vector of length N.
  Read at one index: the gather is the operand's row at the start index, read signed and clamped into [0, N - 1];
  the accumulating scatter is the operand's element plus the sum of the update rows whose destination index, read signed,
  is that row (an index outside [0, N - 1] names no row and its update is dropped).
-/
import Idealize.ShloMosaic.Lib.ValueIdx
import Idealize.ShloMosaic.PureOps.Ideal.Laws

noncomputable section

open scoped BigOperators

namespace Cert.Segment

open Idealize.ShloMosaic Idealize.ShloMosaic.ValueIdx

/-- A start index read signed and clamped into [0, N-1]. -/
def clampRow (N : ℕ) (hN : 0 < N) {w : ℕ} (b : BitVec w) : Fin N := ⟨min b.toInt.toNat (N - 1), by omega⟩

/-- The clamped row's value: the minimum of the signed reading (negative read as 0) and N - 1. -/
theorem clampRow_val (N : ℕ) (hN : 0 < N) {w : ℕ} (b : BitVec w) :
    (clampRow N hN b).val = min b.toInt.toNat (N - 1) := rfl

/-- In a rank-2 shape axis 1 is not axis 0 (a closed fact, used to decide membership in the literal axis lists). -/
theorem one_ne_zero_fin2 : (1 : Fin 2) ≠ 0 := by decide

/-- Axis 1 is not in the list holding axis 0 alone. -/
theorem one_not_mem_zero : (1 : Fin 2) ∉ [(0 : Fin 2)] := fun h => one_ne_zero_fin2 (List.mem_singleton.mp h)

/-! ## Gather of rows of an [N, C] array -/

/-- The dimension numbers of a row gather: operand [N, C], start indices [E, 1], result [E, C]; the result's axis 1 is
    the offset axis (a whole row of C), the operand's axis 0 is collapsed and is the one the start index names. -/
abbrev gatherRowsDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the operand at row idx[e, 0], read signed and clamped into [0, N - 1], column c. -/
theorem gather_rows_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (clampRow N hN (idx (ix2 e (0 : Fin 1)))) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have h1 : (1 : Fin 2) ∈ (gatherRowsDims N E C wf).sKept :=
      (GatherDims.mem_sKept _ _).mpr ⟨one_not_mem_zero, List.not_mem_nil⟩
    unfold GatherDims.start GatherDims.offCoord
    rw [dif_neg (show ¬ (1 : Fin 2) ∈ (gatherRowsDims N E C wf).startIndexMap from one_not_mem_zero), dif_pos h1]
    simp only [Nat.add_zero, Nat.zero_add]
    rfl

/-! ## Gather of elements of a vector of length N -/

/-- The dimension numbers of an element gather: operand [N], start indices [E, 1], result [E]; no offset axis, the
    operand's one axis is collapsed and is the one the start index names. -/
abbrev gatherVecDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT e: the operand at idx[e, 0], read signed and clamped into [0, N - 1]. -/
theorem gather_vec_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (clampRow N hN (idx (ix2 e (0 : Fin 1))))) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The scatter's result index, in general -/

/-- An update lands at operand index i exactly when, on every axis, its start (read signed) plus its window coordinate is
    i's coordinate: the sum is then inside the operand, and outside it the update is dropped. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hi := Option.some.inj heq
      have ha := congrArg (fun f => ((f a).val : ℤ)) hi
      simp only at ha
      rw [← ha, Int.toNat_of_nonneg (h a).1]
    · intro hall
      congr 1
      funext a
      refine Fin.ext ?_
      have := hall a
      show (d.start j idx a + (d.window j a : ℤ)).toNat = (i a).val
      omega
  · rename_i h
    constructor
    · intro heq; cases heq
    · intro hall
      exfalso
      apply h
      intro a
      have := hall a
      have hlt := (i a).isLt
      constructor <;> omega

/-! ## Accumulating scatter of rows into an [N, C] array -/

/-- The dimension numbers of a row scatter: operand [N, C], scatter indices [E, 1], updates [E, C]; the updates' axis 1
    is the window axis (a whole row of C), the operand's axis 0 is inserted and is the one the scatter index names. -/
abbrev scatterRowsDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update (e, c') reads its scatter index at [e, 0]. -/
theorem scatterRows_siIdx {N E C : ℕ} (wf : ScatterDims.WF ⟨2, ![N, C]⟩ ⟨2, ![E, 1]⟩ ⟨2, ![E, C]⟩ [1] [0] [0] 1)
    (e : Fin E) (c' : Fin C) (k : Fin (scatterRowsDims N E C wf).scatterDimsToOperandDims.length) :
    (scatterRowsDims N E C wf).siIdx (ix2 e c') k = ix2 e (0 : Fin 1) := by
  funext b; refine Fin.ext ?_
  match b with
  | ⟨0, _⟩ => rfl
  | ⟨1, _⟩ =>
    have hk : k.val < 1 := k.isLt
    show k.val = 0
    omega

/-- On the row axis the window starts at the scatter index read signed … -/
theorem scatterRows_start0 {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl),
    scatterRows_siIdx]

/-- … and on the column axis at 0. -/
theorem scatterRows_start1 {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) :
    (scatterRowsDims N E C wf).start (ix2 e c') idx 1 = 0 := by
  unfold ScatterDims.start
  rw [dif_neg (show ¬ (1 : Fin 2) ∈ (scatterRowsDims N E C wf).scatterDimsToOperandDims from one_not_mem_zero)]

/-- The operand's kept axes of a row scatter: axis 1 is kept, axis 0 (inserted) is not. -/
theorem scatterRows_mem_sKept {N E C : ℕ} (wf : ScatterDims.WF ⟨2, ![N, C]⟩ ⟨2, ![E, 1]⟩ ⟨2, ![E, C]⟩ [1] [0] [0] 1)
    (a : Fin 2) : a ∈ (scatterRowsDims N E C wf).sKept ↔ a ∉ [(0 : Fin 2)] := by
  simp [ScatterDims.sKept, Shape.kept, List.mem_filter, List.mem_finRange]

/-- The window coordinate on the row axis is 0 … -/
theorem scatterRows_window0 {N E C : ℕ} (wf : ScatterDims.WF ⟨2, ![N, C]⟩ ⟨2, ![E, 1]⟩ ⟨2, ![E, C]⟩ [1] [0] [0] 1)
    (e : Fin E) (c' : Fin C) : (scatterRowsDims N E C wf).window (ix2 e c') 0 = 0 := by
  unfold ScatterDims.window
  rw [dif_neg (fun h => ((scatterRows_mem_sKept wf 0).mp h) (List.mem_singleton.mpr rfl))]

/-- … and on the column axis the update's column. -/
theorem scatterRows_window1 {N E C : ℕ} (wf : ScatterDims.WF ⟨2, ![N, C]⟩ ⟨2, ![E, 1]⟩ ⟨2, ![E, C]⟩ [1] [0] [0] 1)
    (e : Fin E) (c' : Fin C) : (scatterRowsDims N E C wf).window (ix2 e c') 1 = c'.val := by
  unfold ScatterDims.window
  rw [dif_pos ((scatterRows_mem_sKept wf 1).mpr one_not_mem_zero)]
  rfl

/-- WHERE A ROW UPDATE LANDS: update (e, c') lands at (p, c) exactly when its scatter index idx[e, 0], read signed, is
    the row p and its column is c. -/
theorem scatterRows_resultIdx {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) (p : Fin N) (c : Fin C) :
    (scatterRowsDims N E C wf).resultIdx? (ix2 e c') idx = some (ix2 p c) ↔
      ((idx (ix2 e (0 : Fin 1))).toInt = (p.val : ℤ) ∧ c' = c) := by
  rw [resultIdx?_eq_some_iff]
  constructor
  · intro hall
    have h0 := hall 0
    have h1 := hall 1
    rw [scatterRows_start0, scatterRows_window0] at h0
    rw [scatterRows_start1, scatterRows_window1] at h1
    refine ⟨?_, Fin.ext ?_⟩
    · have : (((ix2 p c : (⟨2, ![N, C]⟩ : Shape).Idx) 0).val : ℤ) = (p.val : ℤ) := rfl
      omega
    · have : (((ix2 p c : (⟨2, ![N, C]⟩ : Shape).Idx) 1).val : ℤ) = (c.val : ℤ) := rfl
      omega
  · rintro ⟨hp, rfl⟩ a
    match a with
    | ⟨0, _⟩ =>
      show (scatterRowsDims N E C wf).start (ix2 e c') idx 0 + ((scatterRowsDims N E C wf).window (ix2 e c') 0 : ℤ) = (p.val : ℤ)
      rw [scatterRows_start0, scatterRows_window0, hp]; simp
    | ⟨1, _⟩ =>
      show (scatterRowsDims N E C wf).start (ix2 e c') idx 1 + ((scatterRowsDims N E C wf).window (ix2 e c') 1 : ℤ) = (c'.val : ℤ)
      rw [scatterRows_start1, scatterRows_window1]; simp

/-- THE ACCUMULATING ROW SCATTER READ AT (p, c): the operand's element plus the sum, over the updates e whose scatter
    index read signed is the row p, of update e's column c. -/
theorem scatterAdd_rows_apply {N E C w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (p : Fin N) (c : Fin C) :
    Ideal.hostScatterAdd (scatterRowsDims N E C wf) x idx upd (ix2 p c) =
      x (ix2 p c) + ∑ e ∈ Finset.univ.filter (fun e : Fin E => (idx (ix2 e (0 : Fin 1))).toInt = (p.val : ℤ)), upd (ix2 e c) := by
  unfold Ideal.hostScatterAdd
  congr 1
  refine Finset.sum_nbij' (fun j : (⟨2, ![E, C]⟩ : Shape).Idx => (j 0 : Fin E)) (fun e : Fin E => ix2 e c) ?_ ?_ ?_ ?_ ?_
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    exact Finset.mem_filter.mpr ⟨Finset.mem_univ _, h.1⟩
  · intro e he
    exact Finset.mem_filter.mpr ⟨Finset.mem_univ _,
      (scatterRows_resultIdx wf idx e c p c).mpr ⟨(Finset.mem_filter.mp he).2, rfl⟩⟩
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    show ix2 e c = ix2 e c'
    rw [h.2]
  · intro e _; rfl
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    show upd (ix2 e c') = upd (ix2 e c)
    rw [h.2]

/-! ## Accumulating scatter of elements into a vector of length N -/

/-- The dimension numbers of an element scatter: operand [N], scatter indices [E, 1], updates [E]; no window axis, the
    operand's one axis is inserted and is the one the scatter index names. -/
abbrev scatterVecDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e reads its scatter index at [e, 0]. -/
theorem scatterVec_siIdx {N E : ℕ} (wf : ScatterDims.WF ⟨1, ![N]⟩ ⟨2, ![E, 1]⟩ ⟨1, ![E]⟩ [] [0] [0] 1)
    (e : Fin E) (k : Fin (scatterVecDims N E wf).scatterDimsToOperandDims.length) :
    (scatterVecDims N E wf).siIdx (ix1 e) k = ix2 e (0 : Fin 1) := by
  funext b; refine Fin.ext ?_
  match b with
  | ⟨0, _⟩ => rfl
  | ⟨1, _⟩ =>
    have hk : k.val < 1 := k.isLt
    show k.val = 0
    omega

/-- The window starts at the scatter index read signed … -/
theorem scatterVec_start0 {N E w : ℕ} (wf : ScatterDims.WF ⟨1, ![N]⟩ ⟨2, ![E, 1]⟩ ⟨1, ![E]⟩ [] [0] [0] 1)
    (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl),
    scatterVec_siIdx]

/-- … and its window coordinate is 0: the one operand axis is inserted, not kept. -/
theorem scatterVec_window0 {N E : ℕ} (wf : ScatterDims.WF ⟨1, ![N]⟩ ⟨2, ![E, 1]⟩ ⟨1, ![E]⟩ [] [0] [0] 1)
    (e : Fin E) : (scatterVecDims N E wf).window (ix1 e) 0 = 0 := by
  unfold ScatterDims.window
  rw [dif_neg (fun h => by
    have h' : (0 : Fin 1) ∉ [(0 : Fin 1)] := by
      simpa [ScatterDims.sKept, Shape.kept, List.mem_filter, List.mem_finRange] using h
    exact h' (List.mem_singleton.mpr rfl))]

/-- WHERE AN ELEMENT UPDATE LANDS: update e lands at p exactly when its scatter index idx[e, 0], read signed, is p. -/
theorem scatterVec_resultIdx {N E w : ℕ} (wf : ScatterDims.WF ⟨1, ![N]⟩ ⟨2, ![E, 1]⟩ ⟨1, ![E]⟩ [] [0] [0] 1)
    (idx : IVec ⟨2, ![E, 1]⟩ w) (e : Fin E) (p : Fin N) :
    (scatterVecDims N E wf).resultIdx? (ix1 e) idx = some (ix1 p) ↔ (idx (ix2 e (0 : Fin 1))).toInt = (p.val : ℤ) := by
  rw [resultIdx?_eq_some_iff]
  constructor
  · intro hall
    have h0 := hall 0
    rw [scatterVec_start0, scatterVec_window0] at h0
    have : (((ix1 p : (⟨1, ![N]⟩ : Shape).Idx) 0).val : ℤ) = (p.val : ℤ) := rfl
    omega
  · intro hp a
    obtain rfl : a = 0 := Subsingleton.elim _ _
    show (scatterVecDims N E wf).start (ix1 e) idx 0 + ((scatterVecDims N E wf).window (ix1 e) 0 : ℤ) = (p.val : ℤ)
    rw [scatterVec_start0, scatterVec_window0, hp]; simp

/-- THE ACCUMULATING ELEMENT SCATTER READ AT p: the operand's element plus the sum of the updates e whose scatter index
    read signed is p. -/
theorem scatterAdd_vec_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (p : Fin N) :
    Ideal.hostScatterAdd (scatterVecDims N E wf) x idx upd (ix1 p) =
      x (ix1 p) + ∑ e ∈ Finset.univ.filter (fun e : Fin E => (idx (ix2 e (0 : Fin 1))).toInt = (p.val : ℤ)), upd (ix1 e) := by
  unfold Ideal.hostScatterAdd
  congr 1
  refine Finset.sum_nbij' (fun j : (⟨1, ![E]⟩ : Shape).Idx => (j 0 : Fin E)) (fun e : Fin E => ix1 e) ?_ ?_ ?_ ?_ ?_
  · intro j hj
    obtain ⟨e, rfl⟩ : ∃ (e : Fin E), j = ix1 e := ⟨j 0, eq_ix1 j⟩
    exact Finset.mem_filter.mpr ⟨Finset.mem_univ _, (scatterVec_resultIdx wf idx e p).mp (Finset.mem_filter.mp hj).2⟩
  · intro e he
    exact Finset.mem_filter.mpr ⟨Finset.mem_univ _, (scatterVec_resultIdx wf idx e p).mpr (Finset.mem_filter.mp he).2⟩
  · intro j _
    obtain ⟨e, rfl⟩ : ∃ (e : Fin E), j = ix1 e := ⟨j 0, eq_ix1 j⟩
    rfl
  · intro e _; rfl
  · intro j _
    obtain ⟨e, rfl⟩ : ∃ (e : Fin E), j = ix1 e := ⟨j 0, eq_ix1 j⟩
    rfl

/-! ## A start index already in range -/

/-- jax wraps a negative start index (b <s 0 ? b + N : b) before a gather; a start index whose signed value is already
    a row p < N is unchanged by the wrap and by the clamp. -/
theorem clampRow_wrap {N : ℕ} (hN : 0 < N) (b : BitVec 32) (p : Fin N) (h : b.toInt = (p.val : ℤ)) :
    clampRow N hN (Scalar.select (IntOp.cmpi .slt b 0#32) (IntOp.addi b (BitVec.ofNat 32 N)) b) = p := by
  have hslt : b.slt 0#32 = false := by
    rw [BitVec.slt]
    have h0 : (0#32 : BitVec 32).toInt = 0 := by decide
    rw [h0, h]
    exact decide_eq_false (by omega)
  have hc : IntOp.cmpi .slt b 0#32 = 0#1 := by
    show BitVec.ofBool (b.slt 0#32) = 0#1
    rw [hslt]; rfl
  rw [hc, select_zero]
  refine Fin.ext ?_
  rw [clampRow_val, h]
  have := p.isLt
  simp only [Int.toNat_natCast]
  omega

end Cert.Segment

end
-- ==== Proof.LibAggregate.lean ====
/-
  A GRAPH LAYER'S WEIGHTED NEIGHBOUR AGGREGATION READ AT AN INDEX.

  A graph convolution layer combines, for every node p, the rows of a feature array H [N, C] at the sources of the
  edges that end in p, each scaled by that edge's weight: with a source vector src, a destination vector dst and a
  weight vector w, all of length E,
      out[p, j] = sum over the edges e with dst[e] = p of  w[e] * H[src[e], j].
  A jnp program spells it as three array operations: a row gather H[src] (start indices = src as a column [E, 1]),
  a product with the weights broadcast first to a column [E, 1] and then over the C columns, and an accumulating
  scatter of the E product rows into an array of zeros [N, C] (scatter indices = dst as a column [E, 1]). This file
  reads that composite at one index (p, j), generic in the extents N, E, C: the gather's start index is read signed
  and clamped into [0, N - 1]; the scatter's destination index is read signed, and an edge whose destination is no
  row contributes nothing; the zero operand drops out (0 + s = s).
-/
import proofs.«157116_j54597624267033_1_alg».proof.Proof.LibSegment
import Idealize.ShloMosaic.Lib.Pipeline.Value
import Idealize.ShloMosaic.Lib.IdealHost

noncomputable section

open scoped BigOperators

namespace Cert.Aggregate

open Idealize.ShloMosaic Idealize.ShloMosaic.ValueIdx Cert.Segment

/-- A vector of length E broadcast to a column [E, 1] reads, at row e, the vector at e. -/
theorem column_apply {α : Type} {E : ℕ} (hi : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hi v (ix2 e z) = v (ix1 e) := by
  refine broadcastInDim_apply ![0] hi v (ix2 e z) (ix1 e) (fun a => ?_)
  match a with
  | ⟨0, _⟩ =>
    show e.val = if E = 1 then 0 else e.val
    by_cases h1 : E = 1
    · rw [if_pos h1]; have := e.isLt; omega
    · rw [if_neg h1]

/-- A column [E, 1] broadcast over C columns reads, at (e, c), the column at row e. -/
theorem columns_apply {α : Type} {E C : ℕ} (hc : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] hc v (ix2 e c) = v (ix2 e (0 : Fin 1)) := by
  refine broadcastInDim_apply ![0, 1] hc v (ix2 e c) (ix2 e (0 : Fin 1)) (fun a => ?_)
  match a with
  | ⟨0, _⟩ =>
    show e.val = if E = 1 then 0 else e.val
    by_cases h1 : E = 1
    · rw [if_pos h1]; have := e.isLt; omega
    · rw [if_neg h1]
  | ⟨1, _⟩ =>
    show (0 : ℕ) = if (1 : ℕ) = 1 then 0 else c.val
    rw [if_pos rfl]

/-- THE AGGREGATION READ AT (p, j): the sum, over the edges e whose destination read signed is the row p, of the edge's
    weight times the feature row at the edge's source (read signed, clamped into [0, N - 1]), column j. -/
theorem aggregate_apply {N E C : ℕ} (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ ![])
    (hi : (⟨1, ![E]⟩ : Shape).BroadcastsInDim ⟨2, ![E, 1]⟩ ![0])
    (hc : (⟨2, ![E, 1]⟩ : Shape).BroadcastsInDim ⟨2, ![E, C]⟩ ![0, 1])
    (nrm : FVec Ideal ⟨1, ![E]⟩ .f32) (H : FVec Ideal ⟨2, ![N, C]⟩ .f32) (srcw dst : IVec ⟨1, ![E]⟩ 32)
    (p : Fin N) (j : Fin C) :
    Host.scatterAdd (F := Ideal) (scatterRowsDims N E C wfs)
        (broadcastInDim ⟨2, ![N, C]⟩ ![] hz (constant (F := Ideal) ⟨0, ![]⟩ .f32 0x00000000#32))
        (broadcastInDim ⟨2, ![E, 1]⟩ ![0] hi dst)
        (mulf (broadcastInDim ⟨2, ![E, C]⟩ ![0, 1] hc (broadcastInDim ⟨2, ![E, 1]⟩ ![0] hi nrm))
              (Host.gather (gatherRowsDims N E C wfg) H (broadcastInDim ⟨2, ![E, 1]⟩ ![0] hi srcw))) (ix2 p j)
      = ∑ e ∈ Finset.univ.filter (fun e : Fin E => (dst (ix1 e)).toInt = (p.val : ℤ)),
          nrm (ix1 e) * H (ix2 (clampRow N hN (srcw (ix1 e))) j) := by
  show Ideal.hostScatterAdd (scatterRowsDims N E C wfs) _ _ _ (ix2 p j) = _
  rw [scatterAdd_rows_apply, broadcastInDim_scalar_apply]
  have h0 : constant (F := Ideal) ⟨0, ![]⟩ .f32 0x00000000#32 ix0 = 0 := Ideal.ofBits_zero_f32
  rw [h0, zero_add]
  refine Finset.sum_congr (Finset.filter_congr (fun e _ => by rw [column_apply])) (fun e _ => ?_)
  show broadcastInDim ⟨2, ![E, C]⟩ ![0, 1] hc (broadcastInDim ⟨2, ![E, 1]⟩ ![0] hi nrm) (ix2 e j)
      * Host.gather (gatherRowsDims N E C wfg) H (broadcastInDim ⟨2, ![E, 1]⟩ ![0] hi srcw) (ix2 e j) = _
  rw [columns_apply, column_apply, gather_rows_apply hN, column_apply]

end Cert.Aggregate

end
-- ==== Proof.LibJoin.lean ====
/-
  JOINS AND SLICES READ AT AN INDEX, generic in the extents.

  Beside LibDenseRow's join along the columns: two arrays `[A, N]` and `[B, N]` joined along the rows, read at `(k, c)`
  (`concat_rows_apply`); two vectors `[A]` and `[B]` joined, read at `k` (`concat_vec_apply`); a block of rows cut out of a
  taller array, read at `(k, j)` (`slice_rows_apply`); one column cut out of an array, read at `(p, 0)`
  (`slice_col_apply`).  Each entry of a join comes from one of the two pieces, chosen by its coordinate on the joined axis:
  LibDenseRow's `cat`.  No algebra of the extended reals is used.
-/
import proofs.«157116_j54597624267033_1_alg».proof.Proof.LibDenseRow

noncomputable section

namespace Cert.Join

open Idealize.ShloMosaic Idealize.ShloMosaic.ValueIdx Cert.DenseRow

/-- `[A, N]` over `[B, N]`, joined along axis 0, read at `(k, c)`. -/
theorem concat_rows_apply {A B C N : ℕ} (hC : C = A + B)
    (x₁ : (⟨2, ![A, N]⟩ : Shape).Idx → EReal) (x₂ : (⟨2, ![B, N]⟩ : Shape).Idx → EReal)
    (h : Shape.Concatenates [(⟨2, ![A, N]⟩ : Shape), ⟨2, ![B, N]⟩] ⟨2, ![C, N]⟩ (0 : Fin 2)) (k : Fin C) (c : Fin N) :
    concatenate ⟨2, ![C, N]⟩ (0 : Fin 2) [⟨⟨2, ![A, N]⟩, x₁⟩, ⟨⟨2, ![B, N]⟩, x₂⟩] h (ix2 k c)
      = cat hC (fun a => x₁ (ix2 a c)) (fun b => x₂ (ix2 b c)) k := by
  unfold cat
  by_cases hk : k.val < A
  · rw [dif_pos hk]
    refine concatenate_pair_apply_left (0 : Fin 2) x₁ x₂ h (ix2 k c) rfl (ix2 ⟨k.val, hk⟩ c) fun b => ?_
    match b with
    | ⟨0, _⟩ => rfl
    | ⟨1, _⟩ => rfl
  · rw [dif_neg hk]
    have hkC := k.isLt
    refine concatenate_pair_apply_right (0 : Fin 2) x₁ x₂ h (ix2 k c) rfl rfl (ix2 ⟨k.val - A, by omega⟩ c) (fun b hb => ?_) ?_
    · match b with
      | ⟨0, _⟩ => exact absurd rfl hb
      | ⟨1, _⟩ => rfl
    · show (k.val - A) + A = k.val
      omega

/-- Two vectors joined, read at `k`. -/
theorem concat_vec_apply {A B C : ℕ} (hC : C = A + B)
    (x₁ : (⟨1, ![A]⟩ : Shape).Idx → EReal) (x₂ : (⟨1, ![B]⟩ : Shape).Idx → EReal)
    (h : Shape.Concatenates [(⟨1, ![A]⟩ : Shape), ⟨1, ![B]⟩] ⟨1, ![C]⟩ (0 : Fin 1)) (k : Fin C) :
    concatenate ⟨1, ![C]⟩ (0 : Fin 1) [⟨⟨1, ![A]⟩, x₁⟩, ⟨⟨1, ![B]⟩, x₂⟩] h (ix1 k)
      = cat hC (fun a => x₁ (ix1 a)) (fun b => x₂ (ix1 b)) k := by
  unfold cat
  by_cases hk : k.val < A
  · rw [dif_pos hk]
    refine concatenate_pair_apply_left (0 : Fin 1) x₁ x₂ h (ix1 k) rfl (ix1 ⟨k.val, hk⟩) fun b => ?_
    match b with
    | ⟨0, _⟩ => rfl
  · rw [dif_neg hk]
    have hkC := k.isLt
    refine concatenate_pair_apply_right (0 : Fin 1) x₁ x₂ h (ix1 k) rfl rfl (ix1 ⟨k.val - A, by omega⟩) (fun b hb => ?_) ?_
    · match b with
      | ⟨0, _⟩ => exact absurd rfl hb
    · show (k.val - A) + A = k.val
      omega

/-- `R` rows cut out of a taller array from row `off` on, read at `(k, j)`: row `off + k` of the array. -/
theorem slice_rows_apply {R R' N : ℕ} (off : ℕ) (x : (⟨2, ![R', N]⟩ : Shape).Idx → EReal)
    (h : (⟨2, ![R', N]⟩ : Shape).Slices ![off, 0] ⟨2, ![R, N]⟩) (k : Fin R) (j : Fin N) (k' : Fin R') (hk : k'.val = off + k.val) :
    extractStridedSlice ⟨2, ![R, N]⟩ ![off, 0] x h (ix2 k j) = x (ix2 k' j) :=
  extractStridedSlice_apply ![off, 0] x h (ix2 k j) (ix2 k' j) fun a => by
    match a with
    | ⟨0, _⟩ => exact hk
    | ⟨1, _⟩ => exact (Nat.zero_add _).symm

/-- Column `c0` cut out of an array, read at `(p, 0)`. -/
theorem slice_col_apply {R N : ℕ} (c0 : ℕ) (x : (⟨2, ![R, N]⟩ : Shape).Idx → EReal)
    (h : (⟨2, ![R, N]⟩ : Shape).Slices ![0, c0] ⟨2, ![R, 1]⟩) (p : Fin R) (u : Fin 1) (c : Fin N) (hc : c.val = c0) :
    extractStridedSlice ⟨2, ![R, 1]⟩ ![0, c0] x h (ix2 p u) = x (ix2 p c) :=
  extractStridedSlice_apply ![0, c0] x h (ix2 p u) (ix2 p c) fun a => by
    match a with
    | ⟨0, _⟩ => exact (Nat.zero_add _).symm
    | ⟨1, _⟩ =>
      show c.val = c0 + u.val
      have := u.isLt
      omega

end Cert.Join

end
-- ==== Proof.LibTwoHeads.lean ====
/-
  A GRAPH LAYER WITH TWO HEADS COMPUTED AS ONE, READ AT AN INDEX.

  Two graph convolution heads over the same features h [N, K], the same edges and the same edge weights, with weight
  matrices W₁ [K, A], W₂ [K, B] and bias vectors b₁ [A], b₂ [B], can be computed as one head of width C = A + B: join the
  weight matrices along the columns, join the bias vectors, take the product h · [W₁ W₂], aggregate its rows over the
  edges (gather at the sources, scale by the weights, sum into the destinations) and add the joined bias as one row
  [1, C].  Column j < A of the result is then the first head's column j, and column A + j the second head's column j:
      out[p, j]     = (sum over the edges e with dst[e] = p of  w[e] * sum over k of h[src[e], k] * W₁[k, j]) + b₁[j],
      out[p, A + j] = the same with W₂ and b₂.
  Stated here for every extent, the aggregation spelled as in the neighbour aggregation lemma and the product as the
  index-by-index product of whole arrays.  The sums are compared term by term: no algebra of the extended reals is used.
-/
import proofs.«157116_j54597624267033_1_alg».proof.Proof.LibAggregate
import proofs.«157116_j54597624267033_1_alg».proof.Proof.LibRegionRows
import proofs.«157116_j54597624267033_1_alg».proof.Proof.LibJoin
import Idealize.ShloMosaic.Lib.ValueLayout

noncomputable section

open scoped BigOperators

namespace Cert.TwoHeads

open Idealize.ShloMosaic Idealize.ShloMosaic.ValueIdx Cert.Segment Cert.DenseRow Cert.KernelIdeal.RegionValue

/-! ## Two rows side by side, read in either half -/

/-- Entry j < A of two rows side by side is the first row's entry j. -/
theorem cat_left {A B C : ℕ} (hC : C = A + B) (x : Fin A → EReal) (y : Fin B → EReal) (j : Fin A) :
    cat hC x y ⟨j.val, by have := j.isLt; omega⟩ = x j := by
  unfold cat
  rw [dif_pos (show j.val < A from j.isLt)]

/-- Entry A + j is the second row's entry j. -/
theorem cat_right {A B C : ℕ} (hC : C = A + B) (x : Fin A → EReal) (y : Fin B → EReal) (j : Fin B) :
    cat hC x y ⟨j.val + A, by have := j.isLt; omega⟩ = y j := by
  unfold cat
  rw [dif_neg (show ¬ j.val + A < A by omega)]
  refine congrArg y (Fin.ext ?_)
  show j.val + A - A = j.val
  omega

/-! ## The joined weight matrix and the joined bias row, read in either half -/

/-- The joined matrix [W₁ W₂] read in its first half of columns. -/
theorem wcat_left {K A B C : ℕ} (hC : C = A + B)
    (hcat : Shape.Concatenates [(⟨2, ![K, A]⟩ : Shape), ⟨2, ![K, B]⟩] ⟨2, ![K, C]⟩ (1 : Fin 2))
    (x4 : FVec Ideal ⟨2, ![K, A]⟩ .f32) (x6 : FVec Ideal ⟨2, ![K, B]⟩ .f32) (k : Fin K) (j : Fin A) :
    concatenate ⟨2, ![K, C]⟩ (1 : Fin 2) [⟨⟨2, ![K, A]⟩, x4⟩, ⟨⟨2, ![K, B]⟩, x6⟩] hcat (ix2 k ⟨j.val, by have := j.isLt; omega⟩)
      = x4 (ix2 k j) := by
  rw [concat_cols_apply hC x4 x6 hcat k, cat_left hC]

/-- The joined matrix read in its second half of columns. -/
theorem wcat_right {K A B C : ℕ} (hC : C = A + B)
    (hcat : Shape.Concatenates [(⟨2, ![K, A]⟩ : Shape), ⟨2, ![K, B]⟩] ⟨2, ![K, C]⟩ (1 : Fin 2))
    (x4 : FVec Ideal ⟨2, ![K, A]⟩ .f32) (x6 : FVec Ideal ⟨2, ![K, B]⟩ .f32) (k : Fin K) (j : Fin B) :
    concatenate ⟨2, ![K, C]⟩ (1 : Fin 2) [⟨⟨2, ![K, A]⟩, x4⟩, ⟨⟨2, ![K, B]⟩, x6⟩] hcat (ix2 k ⟨j.val + A, by have := j.isLt; omega⟩)
      = x6 (ix2 k j) := by
  rw [concat_cols_apply hC x4 x6 hcat k, cat_right hC]

/-- The joined bias as one row, read in its first half. -/
theorem brow_left {A B C : ℕ} (hC : C = A + B)
    (hcat0 : Shape.Concatenates [(⟨1, ![A]⟩ : Shape), ⟨1, ![B]⟩] ⟨1, ![C]⟩ (0 : Fin 1))
    (hsc : (⟨1, ![C]⟩ : Shape).ShapeCasts ⟨2, ![1, C]⟩)
    (x5 : FVec Ideal ⟨1, ![A]⟩ .f32) (x7 : FVec Ideal ⟨1, ![B]⟩ .f32) (u : Fin 1) (j : Fin A) :
    shapeCast ⟨2, ![1, C]⟩ (concatenate ⟨1, ![C]⟩ (0 : Fin 1) [⟨⟨1, ![A]⟩, x5⟩, ⟨⟨1, ![B]⟩, x7⟩] hcat0) hsc
        (ix2 u ⟨j.val, by have := j.isLt; omega⟩) = x5 (ix1 j) := by
  rw [shapeCast_a_1a_apply, Cert.Join.concat_vec_apply hC x5 x7 hcat0, cat_left hC]

/-- The joined bias as one row, read in its second half. -/
theorem brow_right {A B C : ℕ} (hC : C = A + B)
    (hcat0 : Shape.Concatenates [(⟨1, ![A]⟩ : Shape), ⟨1, ![B]⟩] ⟨1, ![C]⟩ (0 : Fin 1))
    (hsc : (⟨1, ![C]⟩ : Shape).ShapeCasts ⟨2, ![1, C]⟩)
    (x5 : FVec Ideal ⟨1, ![A]⟩ .f32) (x7 : FVec Ideal ⟨1, ![B]⟩ .f32) (u : Fin 1) (j : Fin B) :
    shapeCast ⟨2, ![1, C]⟩ (concatenate ⟨1, ![C]⟩ (0 : Fin 1) [⟨⟨1, ![A]⟩, x5⟩, ⟨⟨1, ![B]⟩, x7⟩] hcat0) hsc
        (ix2 u ⟨j.val + A, by have := j.isLt; omega⟩) = x7 (ix1 j) := by
  rw [shapeCast_a_1a_apply, Cert.Join.concat_vec_apply hC x5 x7 hcat0, cat_right hC]

/-! ## The two heads -/

/-- THE FIRST HEAD: column j < A of the joint layer at row p. -/
theorem kernel_mu_apply {N E K A B C : ℕ} (hN : 0 < N) (hC : C = A + B)
    (hcat : Shape.Concatenates [(⟨2, ![K, A]⟩ : Shape), ⟨2, ![K, B]⟩] ⟨2, ![K, C]⟩ (1 : Fin 2))
    (hcat0 : Shape.Concatenates [(⟨1, ![A]⟩ : Shape), ⟨1, ![B]⟩] ⟨1, ![C]⟩ (0 : Fin 1))
    (hsc : (⟨1, ![C]⟩ : Shape).ShapeCasts ⟨2, ![1, C]⟩)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ ![])
    (hi : (⟨1, ![E]⟩ : Shape).BroadcastsInDim ⟨2, ![E, 1]⟩ ![0])
    (hc : (⟨2, ![E, 1]⟩ : Shape).BroadcastsInDim ⟨2, ![E, C]⟩ ![0, 1])
    (x4 : FVec Ideal ⟨2, ![K, A]⟩ .f32) (x5 : FVec Ideal ⟨1, ![A]⟩ .f32)
    (x6 : FVec Ideal ⟨2, ![K, B]⟩ .f32) (x7 : FVec Ideal ⟨1, ![B]⟩ .f32)
    (h : FVec Ideal ⟨2, ![N, K]⟩ .f32) (nrm : FVec Ideal ⟨1, ![E]⟩ .f32) (srcw dst : IVec ⟨1, ![E]⟩ 32)
    (p : Fin N) (j : Fin A) :
    Host.scatterAdd (F := Ideal) (scatterRowsDims N E C wfs)
        (broadcastInDim ⟨2, ![N, C]⟩ ![] hz (constant (F := Ideal) ⟨0, ![]⟩ .f32 0x00000000#32))
        (broadcastInDim ⟨2, ![E, 1]⟩ ![0] hi dst)
        (mulf (broadcastInDim ⟨2, ![E, C]⟩ ![0, 1] hc (broadcastInDim ⟨2, ![E, 1]⟩ ![0] hi nrm))
              (Host.gather (gatherRowsDims N E C wfg)
                (prodArr h (concatenate ⟨2, ![K, C]⟩ (1 : Fin 2) [⟨⟨2, ![K, A]⟩, x4⟩, ⟨⟨2, ![K, B]⟩, x6⟩] hcat))
                (broadcastInDim ⟨2, ![E, 1]⟩ ![0] hi srcw)))
        (ix2 p ⟨j.val, by have := j.isLt; omega⟩)
      + shapeCast ⟨2, ![1, C]⟩ (concatenate ⟨1, ![C]⟩ (0 : Fin 1) [⟨⟨1, ![A]⟩, x5⟩, ⟨⟨1, ![B]⟩, x7⟩] hcat0) hsc
          (ix2 (0 : Fin 1) ⟨j.val, by have := j.isLt; omega⟩)
      = (∑ e ∈ Finset.univ.filter (fun e : Fin E => (dst (ix1 e)).toInt = (p.val : ℤ)),
            nrm (ix1 e) * ∑ k : Fin K, h (ix2 (clampRow N hN (srcw (ix1 e))) k) * x4 (ix2 k j))
        + x5 (ix1 j) := by
  rw [brow_left hC hcat0 hsc x5 x7, Cert.Aggregate.aggregate_apply hN wfs wfg hz hi hc]
  refine congrArg (fun t => t + x5 (ix1 j)) ?_
  refine Finset.sum_congr rfl (fun e _ => ?_)
  rw [prodArr_apply]
  refine congrArg (fun t => nrm (ix1 e) * t) ?_
  exact Finset.sum_congr rfl (fun k _ => by rw [wcat_left hC hcat x4 x6 k j])

/-- THE SECOND HEAD: column A + j of the joint layer at row p. -/
theorem kernel_ls_apply {N E K A B C : ℕ} (hN : 0 < N) (hC : C = A + B)
    (hcat : Shape.Concatenates [(⟨2, ![K, A]⟩ : Shape), ⟨2, ![K, B]⟩] ⟨2, ![K, C]⟩ (1 : Fin 2))
    (hcat0 : Shape.Concatenates [(⟨1, ![A]⟩ : Shape), ⟨1, ![B]⟩] ⟨1, ![C]⟩ (0 : Fin 1))
    (hsc : (⟨1, ![C]⟩ : Shape).ShapeCasts ⟨2, ![1, C]⟩)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ ![])
    (hi : (⟨1, ![E]⟩ : Shape).BroadcastsInDim ⟨2, ![E, 1]⟩ ![0])
    (hc : (⟨2, ![E, 1]⟩ : Shape).BroadcastsInDim ⟨2, ![E, C]⟩ ![0, 1])
    (x4 : FVec Ideal ⟨2, ![K, A]⟩ .f32) (x5 : FVec Ideal ⟨1, ![A]⟩ .f32)
    (x6 : FVec Ideal ⟨2, ![K, B]⟩ .f32) (x7 : FVec Ideal ⟨1, ![B]⟩ .f32)
    (h : FVec Ideal ⟨2, ![N, K]⟩ .f32) (nrm : FVec Ideal ⟨1, ![E]⟩ .f32) (srcw dst : IVec ⟨1, ![E]⟩ 32)
    (p : Fin N) (j : Fin B) :
    Host.scatterAdd (F := Ideal) (scatterRowsDims N E C wfs)
        (broadcastInDim ⟨2, ![N, C]⟩ ![] hz (constant (F := Ideal) ⟨0, ![]⟩ .f32 0x00000000#32))
        (broadcastInDim ⟨2, ![E, 1]⟩ ![0] hi dst)
        (mulf (broadcastInDim ⟨2, ![E, C]⟩ ![0, 1] hc (broadcastInDim ⟨2, ![E, 1]⟩ ![0] hi nrm))
              (Host.gather (gatherRowsDims N E C wfg)
                (prodArr h (concatenate ⟨2, ![K, C]⟩ (1 : Fin 2) [⟨⟨2, ![K, A]⟩, x4⟩, ⟨⟨2, ![K, B]⟩, x6⟩] hcat))
                (broadcastInDim ⟨2, ![E, 1]⟩ ![0] hi srcw)))
        (ix2 p ⟨j.val + A, by have := j.isLt; omega⟩)
      + shapeCast ⟨2, ![1, C]⟩ (concatenate ⟨1, ![C]⟩ (0 : Fin 1) [⟨⟨1, ![A]⟩, x5⟩, ⟨⟨1, ![B]⟩, x7⟩] hcat0) hsc
          (ix2 (0 : Fin 1) ⟨j.val + A, by have := j.isLt; omega⟩)
      = (∑ e ∈ Finset.univ.filter (fun e : Fin E => (dst (ix1 e)).toInt = (p.val : ℤ)),
            nrm (ix1 e) * ∑ k : Fin K, h (ix2 (clampRow N hN (srcw (ix1 e))) k) * x6 (ix2 k j))
        + x7 (ix1 j) := by
  rw [brow_right hC hcat0 hsc x5 x7, Cert.Aggregate.aggregate_apply hN wfs wfg hz hi hc]
  refine congrArg (fun t => t + x7 (ix1 j)) ?_
  refine Finset.sum_congr rfl (fun e _ => ?_)
  rw [prodArr_apply]
  refine congrArg (fun t => nrm (ix1 e) * t) ?_
  exact Finset.sum_congr rfl (fun k _ => by rw [wcat_right hC hcat x4 x6 k j])

end Cert.TwoHeads

end
-- ==== Proof.RefLayer2.lean ====
/-
  THE REFERENCE ENCODER'S SECOND LAYER READ AT AN INDEX.

  The reference is a two-layer graph convolution encoder over 100000 nodes and 1700000 edges (the given edges with one
  self loop per node appended). Its second layer applies, twice, with two weight matrices and two bias vectors, the
  same map to the first layer's output h [100000, 48]: with dst, src the edges' destination and source vectors and w
  the per-edge weight (the product of the two end nodes' inverse square root in-degrees, zero for a node of degree
  zero),
      out[p, j] = (sum over the edges e with dst[e] = p of  w[e] * sum over k of h[src[e], k] * W[k, j]) + b[j].
  The program computes the product h W first, gathers its rows at the sources, scales them by the weights, sums them
  into the destination rows and adds the bias row. Both results (the mean branch and the log standard deviation
  branch) are read here at (p, j) in that closed form. The second layer recomputes the source vector and the weight
  vector by the same chains of operations the first layer used; they are the same arrays.
-/
import proofs.«157116_j54597624267033_1_alg».proof.Proof.RefRead
import proofs.«157116_j54597624267033_1_alg».proof.Proof.LibAggregate
import proofs.«157116_j54597624267033_1_alg».proof.Proof.LibBlockDot

noncomputable section

open scoped BigOperators

namespace Cert.ReferenceIdeal.RefValue

open Cert.ReferenceIdeal Cert.ReferenceIdeal.Gen Cert.ReferenceIdeal.Read Cert.Segment
open Idealize.ShloMosaic Idealize.ShloMosaic.ValueIdx

/-- There is at least one node. -/
theorem hN : 0 < 100000 := by decide

variable (x0 : (⟨S100000x128, .f32⟩ : BufTy).Contents (Elt Ideal)) (x1 : (⟨S2x1600000, .i32⟩ : BufTy).Contents (Elt Ideal))
  (x2 : (⟨S128x48, .f32⟩ : BufTy).Contents (Elt Ideal)) (x3 : (⟨S48, .f32⟩ : BufTy).Contents (Elt Ideal))
  (x4 : (⟨S48x32, .f32⟩ : BufTy).Contents (Elt Ideal)) (x5 : (⟨S32, .f32⟩ : BufTy).Contents (Elt Ideal))
  (x6 : (⟨S48x32, .f32⟩ : BufTy).Contents (Elt Ideal)) (x7 : (⟨S32, .f32⟩ : BufTy).Contents (Elt Ideal))

/-! ## The recomputed chains are the first layer's -/

/-- The source vector after the wrap of negative indices, recomputed for the mean branch, is the first layer's. -/
theorem src_mu_eq : val_main_v79 (F := Ideal) x1 = val_main_v21 (F := Ideal) x1 := rfl

/-- The same for the log standard deviation branch. -/
theorem src_ls_eq : val_main_v120 (F := Ideal) x1 = val_main_v21 (F := Ideal) x1 := rfl

/-- The weight vector recomputed for the mean branch is the first layer's. -/
theorem nrm_mu_eq : val_main_v73 (F := Ideal) x1 = val_main_v31 (F := Ideal) x1 := rfl

/-- The same for the log standard deviation branch. -/
theorem nrm_ls_eq : val_main_v114 (F := Ideal) x1 = val_main_v31 (F := Ideal) x1 := rfl

/-! ## The product h W and the bias row at an index -/

/-- The product of the first layer's output with a weight matrix [48, 32], read at (r, j). -/
theorem hW_apply (W : (⟨S48x32, .f32⟩ : BufTy).Contents (Elt Ideal)) (r : Fin 100000) (j : Fin 32) :
    val_main_v49 (F := Ideal) x0 x1 x2 x3 W (ix2 r j)
      = ∑ k : Fin 48, val_main_v48 (F := Ideal) x0 x1 x2 x3 (ix2 r k) * W (ix2 k j) :=
  Cert.BlockDot.hdot_apply (R := 100000) (K := 48) (N := 32) none (val_main_v48 (F := Ideal) x0 x1 x2 x3) W r j

/-- The log standard deviation branch's product is the same operation at its own weight matrix. -/
theorem hW_ls_eq : val_main_v90 (F := Ideal) x0 x1 x2 x3 x6 = val_main_v49 (F := Ideal) x0 x1 x2 x3 x6 := rfl

/-- A bias vector [32] broadcast to one row and then over the rows reads, at (p, j), the vector at j. -/
theorem bias_apply (b : (⟨S32, .f32⟩ : BufTy).Contents (Elt Ideal)) (p : Fin 100000) (j : Fin 32) :
    val_main_v88 (F := Ideal) b (ix2 p j) = b (ix1 j) := by
  rw [val_main_v88_apply, val_main_v87_apply]
  refine congrArg b ?_
  funext a
  match a with
  | ⟨0, _⟩ => rfl

/-! ## The two results -/

/-- THE MEAN BRANCH READ AT (p, j). -/
theorem ref_mu_apply (p : Fin 100000) (j : Fin 32) :
    val_main_v89 (F := Ideal) x0 x1 x2 x3 x4 x5 (ix2 p j)
      = (∑ e ∈ Finset.univ.filter (fun e : Fin 1700000 => (val_main_v6 (F := Ideal) x1 (ix1 e)).toInt = (p.val : ℤ)),
            val_main_v31 (F := Ideal) x1 (ix1 e) * ∑ k : Fin 48, val_main_v48 (F := Ideal) x0 x1 x2 x3 (ix2 (clampRow 100000 hN (val_main_v21 (F := Ideal) x1 (ix1 e))) k) * x4 (ix2 k j))
        + x5 (ix1 j) := by
  rw [val_main_v89_apply, Ideal.addf_def, bias_apply]
  refine congrArg (fun t => t + x5 (ix1 j)) ?_
  have h := Cert.Aggregate.aggregate_apply (N := 100000) (E := 1700000) (C := 32) hN
    scatter_S100000x32_S1700000x1_S1700000x32_1_0_0_1_wf gather_S100000x32_S1700000x1_S1700000x32_1_0_n_n_0_1_132_wf
    bcast_S_S100000x32 bcast_S1700000_S1700000x1_0 bcast_S1700000x1_S1700000x32_0_1
    (val_main_v73 (F := Ideal) x1) (val_main_v49 (F := Ideal) x0 x1 x2 x3 x4) (val_main_v79 (F := Ideal) x1)
    (val_main_v6 (F := Ideal) x1) p j
  refine (show val_main_v86 (F := Ideal) x0 x1 x2 x3 x4 (ix2 p j) = _ from h).trans ?_
  rw [nrm_mu_eq, src_mu_eq]
  refine Finset.sum_congr rfl (fun e _ => ?_)
  rw [hW_apply]

/-- THE LOG STANDARD DEVIATION BRANCH READ AT (p, j): the same map with its own weight matrix and bias vector. -/
theorem ref_ls_apply (p : Fin 100000) (j : Fin 32) :
    val_main_v130 (F := Ideal) x0 x1 x2 x3 x6 x7 (ix2 p j)
      = (∑ e ∈ Finset.univ.filter (fun e : Fin 1700000 => (val_main_v6 (F := Ideal) x1 (ix1 e)).toInt = (p.val : ℤ)),
            val_main_v31 (F := Ideal) x1 (ix1 e) * ∑ k : Fin 48, val_main_v48 (F := Ideal) x0 x1 x2 x3 (ix2 (clampRow 100000 hN (val_main_v21 (F := Ideal) x1 (ix1 e))) k) * x6 (ix2 k j))
        + x7 (ix1 j) := by
  rw [val_main_v130_apply, Ideal.addf_def]
  have hb : val_main_v129 (F := Ideal) x7 (ix2 p j) = x7 (ix1 j) := bias_apply x7 p j
  rw [hb]
  refine congrArg (fun t => t + x7 (ix1 j)) ?_
  have h := Cert.Aggregate.aggregate_apply (N := 100000) (E := 1700000) (C := 32) hN
    scatter_S100000x32_S1700000x1_S1700000x32_1_0_0_1_wf gather_S100000x32_S1700000x1_S1700000x32_1_0_n_n_0_1_132_wf
    bcast_S_S100000x32 bcast_S1700000_S1700000x1_0 bcast_S1700000x1_S1700000x32_0_1
    (val_main_v114 (F := Ideal) x1) (val_main_v90 (F := Ideal) x0 x1 x2 x3 x6) (val_main_v120 (F := Ideal) x1)
    (val_main_v6 (F := Ideal) x1) p j
  refine (show val_main_v127 (F := Ideal) x0 x1 x2 x3 x6 (ix2 p j) = _ from h).trans ?_
  rw [nrm_ls_eq, src_ls_eq, hW_ls_eq]
  refine Finset.sum_congr rfl (fun e _ => ?_)
  rw [hW_apply]

end Cert.ReferenceIdeal.RefValue

end
-- ==== Proof.Layers.lean ====
/-
  The kernel program's buffers from its first region to its results, named by the reference's stages.

  Region by region and stretch by stretch: the first region's output is the product x · W₁ (the reference's
  dot_general); the host operations after it aggregate its rows over the edges exactly as the reference does
  (the same gather, weights and segment sum of equal operands); the second region adds the bias and rectifies,
  which is the reference's first layer h; the third region multiplies h by the two second-layer weight matrices
  joined along the columns; the host operations aggregate that product's rows; the last region adds the joined
  bias and splits the columns into the two results.  Read at an index, a result is the reference's:
  the sum over the edges into the row of the edge weight times the source row of h times one weight column,
  plus one bias entry.
-/
import proofs.«157116_j54597624267033_1_alg».proof.Proof.Walk
import proofs.«157116_j54597624267033_1_alg».proof.Proof.Finals
import proofs.«157116_j54597624267033_1_alg».proof.Proof.LibProdRows
import proofs.«157116_j54597624267033_1_alg».proof.Proof.LibRowBias
import proofs.«157116_j54597624267033_1_alg».proof.Proof.LibTwoHeads
import proofs.«157116_j54597624267033_1_alg».proof.Proof.RefLayer2

set_option maxRecDepth 16384

noncomputable section

open scoped BigOperators

namespace Cert.KernelIdeal.Layers

open Cert.KernelIdeal Cert.KernelIdeal.Gen Cert.KernelIdeal.Walk
open Idealize.ShloMosaic Idealize.ShloMosaic.TcCoe Idealize.SL.Sem Idealize.ShloMosaic.StableHlo Idealize.ShloMosaic.ValueIdx
open Cert.KernelIdeal.RegionValue (prodArr realArr)

variable (m : (ℓ : Loc nD τ sig) → Buf (Elt Ideal) ℓ) (ρ : Dev nD → PrngReg) (c : Dev nD)

/-! ## The first layer -/

/-- The first region's output array is the reference's product of the features and the first weight matrix. -/
theorem W4_v31 : W4 m ρ c (Proc.devRef .tc main_v31) = Cert.ReferenceIdeal.Read.val_main_v7 (F := Ideal) (m ((c : Thread nD τ).loc main_arg0)) (m ((c : Thread nD τ).loc main_arg2)) := by
  refine (W4_arr m ρ c 2).trans ?_
  rw [Cert.KernelIdeal.Finals.final0 (V3 m ρ) c,
    show V3 m ρ c main_arg0 = (m ((c : Thread nD τ).loc main_arg0)) from W3_arg0 m ρ c,
    show V3 m ρ c main_arg2 = (m ((c : Thread nD τ).loc main_arg2)) from W3_arg2 m ρ c]
  exact (Cert.ProdRows.hprod (R := 100000) (K := 128) (N := 48) none (m ((c : Thread nD τ).loc main_arg0)) (m ((c : Thread nD τ).loc main_arg2))).symm

/-- Its rows aggregated over the edges: the reference's first segment sum. -/
theorem W5_v44 : W5 m ρ c (Proc.devRef .tc main_v44) = Cert.ReferenceIdeal.Read.val_main_v44 (F := Ideal) (m ((c : Thread nD τ).loc main_arg0)) (m ((c : Thread nD τ).loc main_arg1)) (m ((c : Thread nD τ).loc main_arg2)) := by
  have e3 := W4_v3 m ρ c
  have e6 := W4_v6 m ρ c
  have e30 := W4_v30 m ρ c
  have e31 := W4_v31 m ρ c
  show StableHlo.after hostOps1 (W4 m ρ c) (Proc.devRef .tc main_v44) = _
  generalize W4 m ρ c = V at e3 e6 e30 e31 ⊢
  after_results_simp
  rw [e3, e6, e30, e31]
  rfl

/-- The first bias as one row. -/
theorem W5_v45 : W5 m ρ c (Proc.devRef .tc main_v45) = shapeCast S1x48 (m ((c : Thread nD τ).loc main_arg3)) shapeCasts_S48_S1x48 := by
  have e := W4_arg3 m ρ c
  show StableHlo.after hostOps1 (W4 m ρ c) (Proc.devRef .tc main_v45) = _
  generalize W4 m ρ c = V at e ⊢
  after_results_simp
  rw [e]
  rfl

/-- The second region's output array is the reference's first layer: the aggregate plus the bias, rectified. -/
theorem W6_v46 : W6 m ρ c (Proc.devRef .tc main_v46) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  rw [Cert.KernelIdeal.Finals.final1 (V5 m ρ) c,
    show V5 m ρ c main_v44 = _ from W5_v44 m ρ c,
    show V5 m ρ c main_v45 = _ from W5_v45 m ρ c]
  funext i
  rw [Cert.ReferenceIdeal.Read.val_main_v48_apply, Cert.ReferenceIdeal.Read.val_main_v47_apply, Cert.ReferenceIdeal.Read.val_main_v46_apply, Cert.ReferenceIdeal.Read.val_main_v45_apply,
    Cert.ReferenceIdeal.Read.val_main_call1_v0_apply, Cert.ReferenceIdeal.Read.val_main_call1_cst_apply]
  have hb : shapeCast S1x48 (m ((c : Thread nD τ).loc main_arg3)) shapeCasts_S48_S1x48 (ix2 (0 : Fin 1) (i 1))
      = (m ((c : Thread nD τ).loc main_arg3)) (Cert.ReferenceIdeal.Read.idx_main_v45 (Cert.ReferenceIdeal.Read.idx_main_v46 i)) := by
    have h := congrFun (Cert.RowBias.unrow_cast (N := 48) (m ((c : Thread nD τ).loc main_arg3)) shapeCasts_S48_S1x48) (ix1 (i 1))
    refine h.trans (congrArg _ ?_)
    funext a
    match a with
    | ⟨0, _⟩ => rfl
  show max (Cert.ReferenceIdeal.Read.val_main_v44 (F := Ideal) (m ((c : Thread nD τ).loc main_arg0)) (m ((c : Thread nD τ).loc main_arg1)) (m ((c : Thread nD τ).loc main_arg2)) i
      + shapeCast S1x48 (m ((c : Thread nD τ).loc main_arg3)) shapeCasts_S48_S1x48 (ix2 (0 : Fin 1) (i 1))) (Ideal.ofBits .f32 0x00000000#32)
    = max (Cert.ReferenceIdeal.Read.val_main_v44 (F := Ideal) (m ((c : Thread nD τ).loc main_arg0)) (m ((c : Thread nD τ).loc main_arg1)) (m ((c : Thread nD τ).loc main_arg2)) i
      + (m ((c : Thread nD τ).loc main_arg3)) (Cert.ReferenceIdeal.Read.idx_main_v45 (Cert.ReferenceIdeal.Read.idx_main_v46 i))) (Ideal.ofBits .f32 0x00000000#32)
  rw [hb]

/-! ## The second layer -/

/-- The two second-layer weight matrices joined along the columns. -/
theorem W7_v47 : W7 m ρ c (Proc.devRef .tc main_v47)
    = concatenate S48x64 1 [⟨S48x32, (m ((c : Thread nD τ).loc main_arg4))⟩, ⟨S48x32, (m ((c : Thread nD τ).loc main_arg6))⟩] concatenates_S48x32_S48x32_S48x64_d1 := by
  have e4 := W6_arg4 m ρ c
  have e6 := W6_arg6 m ρ c
  show StableHlo.after hostOps2 (W6 m ρ c) (Proc.devRef .tc main_v47) = _
  generalize W6 m ρ c = V at e4 e6 ⊢
  after_results_simp
  rw [e4, e6]

/-- The third region's output array: the first layer times the joined weight matrix. -/
theorem W8_v48 : W8 m ρ c (Proc.devRef .tc main_v48)
    = prodArr (R := 100000) (K := 48) (N := 64) (Cert.ReferenceIdeal.Read.val_main_v48 (F := Ideal) (m ((c : Thread nD τ).loc main_arg0)) (m ((c : Thread nD τ).loc main_arg1)) (m ((c : Thread nD τ).loc main_arg2)) (m ((c : Thread nD τ).loc main_arg3)))
        (concatenate S48x64 1 [⟨S48x32, (m ((c : Thread nD τ).loc main_arg4))⟩, ⟨S48x32, (m ((c : Thread nD τ).loc main_arg6))⟩] concatenates_S48x32_S48x32_S48x64_d1) := by
  refine (W8_arr m ρ c 2).trans ?_
  rw [Cert.KernelIdeal.Finals.final2 (V7 m ρ) c,
    show V7 m ρ c main_v46 = _ from (W7_v46' m ρ c).trans (W6_v46 m ρ c),
    show V7 m ρ c main_v47 = _ from W7_v47 m ρ c]

/-- Its rows aggregated over the edges, in the spelling the aggregation lemma reads. -/
theorem W9_v61 : W9 m ρ c (Proc.devRef .tc main_v61)
    = Host.scatterAdd (F := Ideal) scatter_S100000x64_S1700000x1_S1700000x64_1_0_0_1
        (broadcastInDim S100000x64 ![] bcast_S_S100000x64 (constant (F := Ideal) S_ .f32 0x00000000#32))
        (broadcastInDim S1700000x1 ![0] bcast_S1700000_S1700000x1_0 (Cert.ReferenceIdeal.Read.val_main_v6 (F := Ideal) (m ((c : Thread nD τ).loc main_arg1))))
        (mulf (broadcastInDim S1700000x64 ![0, 1] bcast_S1700000x1_S1700000x64_0_1
                (broadcastInDim S1700000x1 ![0] bcast_S1700000_S1700000x1_0 (Cert.ReferenceIdeal.Read.val_main_v31 (F := Ideal) (m ((c : Thread nD τ).loc main_arg1)))))
              (Host.gather gather_S100000x64_S1700000x1_S1700000x64_1_0_n_n_0_1_164
                (prodArr (R := 100000) (K := 48) (N := 64) (Cert.ReferenceIdeal.Read.val_main_v48 (F := Ideal) (m ((c : Thread nD τ).loc main_arg0)) (m ((c : Thread nD τ).loc main_arg1)) (m ((c : Thread nD τ).loc main_arg2)) (m ((c : Thread nD τ).loc main_arg3)))
                  (concatenate S48x64 1 [⟨S48x32, (m ((c : Thread nD τ).loc main_arg4))⟩, ⟨S48x32, (m ((c : Thread nD τ).loc main_arg6))⟩] concatenates_S48x32_S48x32_S48x64_d1))
                (broadcastInDim S1700000x1 ![0] bcast_S1700000_S1700000x1_0 (Cert.ReferenceIdeal.Read.val_main_v21 (F := Ideal) (m ((c : Thread nD τ).loc main_arg1)))))) := by
  have e3 := W8_v3 m ρ c
  have e6 := W8_v6 m ρ c
  have e30 := W8_v30 m ρ c
  have e48 := W8_v48 m ρ c
  show StableHlo.after hostOps3 (W8 m ρ c) (Proc.devRef .tc main_v61) = _
  generalize W8 m ρ c = V at e3 e6 e30 e48 ⊢
  after_results_simp
  rw [e3, e6, e30, e48]
  rfl

/-- The two second-layer biases joined, as one row. -/
theorem W9_v63 : W9 m ρ c (Proc.devRef .tc main_v63)
    = shapeCast S1x64 (concatenate S64 0 [⟨S32, (m ((c : Thread nD τ).loc main_arg5))⟩, ⟨S32, (m ((c : Thread nD τ).loc main_arg7))⟩] concatenates_S32_S32_S64_d0) shapeCasts_S64_S1x64 := by
  have e5 := W8_arg5 m ρ c
  have e7 := W8_arg7 m ρ c
  show StableHlo.after hostOps3 (W8 m ρ c) (Proc.devRef .tc main_v63) = _
  generalize W8 m ρ c = V at e5 e7 ⊢
  after_results_simp
  after_results_rest
  rw [e5, e7]
  rfl

theorem hN : 0 < 100000 := by decide

/-- THE FIRST RESULT is the reference's. -/
theorem result0 : W10 m ρ c (Proc.devRef .tc main_v64_0)
    = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 2).trans ?_
  rw [Cert.KernelIdeal.Finals.final3a (V9 m ρ) c,
    show V9 m ρ c main_v61 = _ from W9_v61 m ρ c,
    show V9 m ρ c main_v63 = _ from W9_v63 m ρ c]
  funext i
  obtain ⟨p, j, rfl⟩ : ∃ (p : Fin 100000) (j : Fin 32), i = ix2 p j := ⟨i 0, i 1, eq_ix2 i⟩
  rw [Cert.ReferenceIdeal.RefValue.ref_mu_apply]
  exact Cert.TwoHeads.kernel_mu_apply (N := 100000) (E := 1700000) (K := 48) (A := 32) (B := 32) (C := 64) hN rfl
    concatenates_S48x32_S48x32_S48x64_d1 concatenates_S32_S32_S64_d0 shapeCasts_S64_S1x64
    scatter_S100000x64_S1700000x1_S1700000x64_1_0_0_1_wf gather_S100000x64_S1700000x1_S1700000x64_1_0_n_n_0_1_164_wf
    bcast_S_S100000x64 bcast_S1700000_S1700000x1_0 bcast_S1700000x1_S1700000x64_0_1
    (m ((c : Thread nD τ).loc main_arg4)) (m ((c : Thread nD τ).loc main_arg5)) (m ((c : Thread nD τ).loc main_arg6)) (m ((c : Thread nD τ).loc main_arg7)) (Cert.ReferenceIdeal.Read.val_main_v48 (F := Ideal) (m ((c : Thread nD τ).loc main_arg0)) (m ((c : Thread nD τ).loc main_arg1)) (m ((c : Thread nD τ).loc main_arg2)) (m ((c : Thread nD τ).loc main_arg3)))
    (Cert.ReferenceIdeal.Read.val_main_v31 (F := Ideal) (m ((c : Thread nD τ).loc main_arg1))) (Cert.ReferenceIdeal.Read.val_main_v21 (F := Ideal) (m ((c : Thread nD τ).loc main_arg1))) (Cert.ReferenceIdeal.Read.val_main_v6 (F := Ideal) (m ((c : Thread nD τ).loc main_arg1))) p j

/-- THE SECOND RESULT is the reference's. -/
theorem result1 : W10 m ρ c (Proc.devRef .tc main_v64_1)
    = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  refine (W10_arr m ρ c 3).trans ?_
  rw [Cert.KernelIdeal.Finals.final3b (V9 m ρ) c,
    show V9 m ρ c main_v61 = _ from W9_v61 m ρ c,
    show V9 m ρ c main_v63 = _ from W9_v63 m ρ c]
  funext i
  obtain ⟨p, j, rfl⟩ : ∃ (p : Fin 100000) (j : Fin 32), i = ix2 p j := ⟨i 0, i 1, eq_ix2 i⟩
  rw [Cert.ReferenceIdeal.RefValue.ref_ls_apply]
  exact Cert.TwoHeads.kernel_ls_apply (N := 100000) (E := 1700000) (K := 48) (A := 32) (B := 32) (C := 64) hN rfl
    concatenates_S48x32_S48x32_S48x64_d1 concatenates_S32_S32_S64_d0 shapeCasts_S64_S1x64
    scatter_S100000x64_S1700000x1_S1700000x64_1_0_0_1_wf gather_S100000x64_S1700000x1_S1700000x64_1_0_n_n_0_1_164_wf
    bcast_S_S100000x64 bcast_S1700000_S1700000x1_0 bcast_S1700000x1_S1700000x64_0_1
    (m ((c : Thread nD τ).loc main_arg4)) (m ((c : Thread nD τ).loc main_arg5)) (m ((c : Thread nD τ).loc main_arg6)) (m ((c : Thread nD τ).loc main_arg7)) (Cert.ReferenceIdeal.Read.val_main_v48 (F := Ideal) (m ((c : Thread nD τ).loc main_arg0)) (m ((c : Thread nD τ).loc main_arg1)) (m ((c : Thread nD τ).loc main_arg2)) (m ((c : Thread nD τ).loc main_arg3)))
    (Cert.ReferenceIdeal.Read.val_main_v31 (F := Ideal) (m ((c : Thread nD τ).loc main_arg1))) (Cert.ReferenceIdeal.Read.val_main_v21 (F := Ideal) (m ((c : Thread nD τ).loc main_arg1))) (Cert.ReferenceIdeal.Read.val_main_v6 (F := Ideal) (m ((c : Thread nD τ).loc main_arg1))) p j

end Cert.KernelIdeal.Layers

end
-- ==== Proof.lean ====
/-
  Two graph-convolution layers computed by four pipelined kernels and the host's gather and segment sum, against the
  reference that computes them by matrix products on the host.

  With s, d the source and destination index vectors of the edges (the edge list's two rows followed by one self loop
  per node), deg the in-degree, f = deg^(-1/2) where deg > 0 and 0 elsewhere, and w[e] = f[s e] · f[d e]:
      h       = max( A(x · W₁) + b₁ , 0 ),        (A y)[p, j] = sum over the edges e with d e = p of  w[e] · y[s e, j],
      mean    = A(h · Wμ) + bμ,      logstd = A(h · Wσ) + bσ.
  The kernel program computes x · W₁ in blocks of 5000 rows, aggregates on the host, adds the bias and rectifies in
  blocks, multiplies h by [Wμ Wσ] joined along the columns, aggregates the 64 columns at once, and adds the joined bias
  and splits the columns in blocks; the reference computes each of the three aggregations separately.  At the exact
  instance a matrix product is the same sum however it is blocked, and column j of the aggregate of h · [Wμ Wσ] is
  column j of the aggregate of h · Wμ (and column 32 + j that of h · Wσ), term by term: no algebra of the extended
  reals beyond reading each operation at an index is used, and the finiteness of the inputs is not needed.

  The three frames: the two kernel programs' are their generated frame certificates; the reference's is its run with
  the results dropped.  The idealization rewrote nothing, so its claim is trivial.
-/
import proofs.«157116_j54597624267033_1_alg».proof.Defs
import proofs.«157116_j54597624267033_1_alg».proof.Proof.Gen.Kernel
import proofs.«157116_j54597624267033_1_alg».proof.Proof.Gen.Kernel.Skeleton
import proofs.«157116_j54597624267033_1_alg».proof.Proof.Gen.Kernel.Launch
import proofs.«157116_j54597624267033_1_alg».proof.Proof.Gen.Kernel.Points
import proofs.«157116_j54597624267033_1_alg».proof.Proof.Gen.Kernel.Frame
import proofs.«157116_j54597624267033_1_alg».proof.Proof.Gen.KernelIdeal
import proofs.«157116_j54597624267033_1_alg».proof.Proof.Gen.KernelIdeal.Skeleton
import proofs.«157116_j54597624267033_1_alg».proof.Proof.Gen.KernelIdeal.Launch
import proofs.«157116_j54597624267033_1_alg».proof.Proof.Gen.KernelIdeal.Points
import proofs.«157116_j54597624267033_1_alg».proof.Proof.Gen.KernelIdeal.Frame
import proofs.«157116_j54597624267033_1_alg».proof.Proof.Gen.ReferenceIdeal
import proofs.«157116_j54597624267033_1_alg».proof.Proof.Gen.Pre_finite_inputs
import proofs.«157116_j54597624267033_1_alg».proof.Proof.KRun
import proofs.«157116_j54597624267033_1_alg».proof.Proof.Layers
import proofs.«157116_j54597624267033_1_alg».proof.Proof.RefRun
import Idealize.ShloMosaic.Adequacy
import Idealize.ShloMosaic.Init

noncomputable section

namespace Cert.Proof

open Idealize.ShloMosaic Idealize.SL.Sem

/-- The kernel program as printed runs, nothing faulting, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the same two results: the reference's two
    stage functions of the arguments. -/
theorem algebraic : Cert.algebraic_KernelIdeal_ReferenceIdeal := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v130 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Layers.result0 m ρ c),
        (h c).2.1.trans (Cert.KernelIdeal.Layers.result1 m ρ c), (h c).2.2⟩)
      (Cert.KernelIdeal.KRun.run_named (F := Ideal) m ρ)
  · refine (θ_run Cert.ReferenceIdeal.defs _ _).mono (fun r h c => ⟨?_, ?_, (h c).2.2⟩)
      (Cert.ReferenceIdeal.Value.run (F := Ideal) m' ρ')
    · rw [(h c).1, (hagree c).1, (hagree c).2.1, (hagree c).2.2.1, (hagree c).2.2.2.1, (hagree c).2.2.2.2.1, (hagree c).2.2.2.2.2.1]
    · rw [(h c).2.1, (hagree c).1, (hagree c).2.1, (hagree c).2.2.1, (hagree c).2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
